-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 25
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x1, .i32⟩
  | .hbm, ⟨9, _⟩ => ⟨S1x8192, .i32⟩
  | .hbm, ⟨10, _⟩ => ⟨S8192x1, .f32⟩
  | .hbm, ⟨11, _⟩ => ⟨S8192x1, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v60 : BitVec 1 := Scalar.cmpi .eq arg1 c7_i32
  let v61 : BitVec 32 := Scalar.extui v60
  let c0_i32_29 : BitVec 32 := 0#32
  let v62 : BitVec 1 := Scalar.cmpi .ne v61 c0_i32_29
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  reducesTo_S8192x128_S8192_d1 : S8192x128.ReducesTo [1] S8192
  h_S_ : 0 < S_.numel
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  shapeCasts_S8192x1_S8192 : S8192x1.ShapeCasts S8192
  bcast_S_S8192 : S_.BroadcastsInDim S8192 (![] : Fin 0 → Fin S8192.rank)
  reducesTo_S8192_S_d0 : S8192.ReducesTo [0] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .f32 = 32 ∨ (Rect.block (s := S8192x1) S1024x1.size (cc0_transform_7 i) (hinb0_7 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 72
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S1x8192, .i32⟩
  | .hbm, ⟨32, _⟩ => ⟨S8192x1, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .i32⟩
  | .hbm, ⟨37, _⟩ => ⟨S8192x8192, .i32⟩
  | .hbm, ⟨38, _⟩ => ⟨S_, .i32⟩
  | .hbm, ⟨39, _⟩ => ⟨S8192x8192, .i32⟩
  | .hbm, ⟨40, _⟩ => ⟨S8192x8192, .i32⟩
  | .hbm, ⟨41, _⟩ => ⟨S8192x8192, .i1⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_call2_v0 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_call3_v0 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_call4_v0 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_call5_v0 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_cst_10 : Ref sig .tc := ⟨.hbm, 59, rfl⟩
abbrev main_v37 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_v40 : Ref sig .tc := ⟨.hbm, 64, rfl⟩
abbrev main_cst_12 : Ref sig .tc := ⟨.hbm, 65, rfl⟩
abbrev main_v41 : Ref sig .tc := ⟨.hbm, 66, rfl⟩
abbrev main_v42 : Ref sig .tc := ⟨.hbm, 67, rfl⟩
abbrev main_cst_13 : Ref sig .tc := ⟨.hbm, 68, rfl⟩
abbrev main_v43 : Ref sig .tc := ⟨.hbm, 69, rfl⟩
abbrev main_cst_14 : Ref sig .tc := ⟨.hbm, 70, rfl⟩
abbrev main_v44 : Ref sig .tc := ⟨.hbm, 71, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Kernel.Base.lean ====
/-
  What the three runs of the mining kernel's body and its launch share. The region is entered after the host lines
  that cast the embeddings, sum their squares row by row and reshape the sums and the labels; it visits an 8 x 8 grid
  of tiles, row tile i and column tile j at point 8 i + j. The body resets its two running columns (the hardest
  positive so far, the hardest negative so far) at j = 0, folds the tile's row maxima and minima into them at every
  point, and copies them to the two output blocks at j = 7.
-/
import proofs.«180511_j70368744178174_1_alg».proof.Proof.Gen.Kernel.Launch
import proofs.«180511_j70368744178174_1_alg».proof.Proof.Gen.Kernel.Skeleton
import proofs.«180511_j70368744178174_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The core's buffers after the host lines before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the earlier host lines, the region, the later host lines: it reduces to the region continued by the
    later lines, entered at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not
    fetched the block index has not moved. One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The reset's condition, j = 0, as the body computes it from the grid coordinates. -/
abbrev condFirst (i : grid0.Coords) : Prop := (Scalar.cmpi .ne (Scalar.extui (Scalar.cmpi .eq (BitVec.ofNat 32 (i 1).val) 0#32)) 0#32) = 1#1
/-- It holds at the points 8 i. -/
theorem hcondFirst : ∀ t : Fin cfg0.N, condFirst (grid0.coords t) ↔ t.val % 8 = 0 :=
  (by decide +kernel : ∀ t : Fin grid0.N, condFirst (grid0.coords t) ↔ t.val % 8 = 0)

/-- The write-out's condition, j = 7. -/
abbrev condLast (i : grid0.Coords) : Prop := k0_cond2 i = 1#1
/-- It holds at the points 8 i + 7. -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem liveIn0 : ∀ i, cfg0.idle 0 i = false := fun _ => rfl
theorem liveIn1 : ∀ i, cfg0.idle 1 i = false := fun _ => rfl
theorem liveIn2 : ∀ i, cfg0.idle 2 i = false := fun _ => rfl
theorem liveIn3 : ∀ i, cfg0.idle 3 i = false := fun _ => rfl
theorem liveIn4 : ∀ i, cfg0.idle 4 i = false := fun _ => rfl
theorem liveIn5 : ∀ i, cfg0.idle 5 i = false := fun _ => rfl
/-- Away from j = 7 the two outputs are idle and not written back. -/
theorem idleOut6 : ∀ t : Fin cfg0.N, ¬condLast (grid0.coords t) → cfg0.idle 6 (grid0.coords t) = true := by decide +kernel
theorem idleOut7 : ∀ t : Fin cfg0.N, ¬condLast (grid0.coords t) → cfg0.idle 7 (grid0.coords t) = true := by decide +kernel
theorem noFlush6 : ∀ t : Fin cfg0.N, ¬condLast (grid0.coords t) → (cfg0.win 6).flush t = false := by decide +kernel
theorem noFlush7 : ∀ t : Fin cfg0.N, ¬condLast (grid0.coords t) → (cfg0.win 7).flush t = false := by decide +kernel
/-- At j = 7 they are stored into. -/
theorem liveOut6 : ∀ t : Fin cfg0.N, condLast (grid0.coords t) → cfg0.idle 6 (grid0.coords t) = false := by decide +kernel
theorem liveOut7 : ∀ t : Fin cfg0.N, condLast (grid0.coords t) → cfg0.idle 7 (grid0.coords t) = false := by decide +kernel

/-! ## The memrefs the body is called with -/

/-- One staging buffer of each output, through which its contents are stated. -/
abbrev VO6 : View sig .tc .vmem S1024x1 .f32 := (Memref.whole cc0_stg6_0 : Memref sig .tc .vmem S1024x1 .f32).view
abbrev VO7 : View sig .tc .vmem S1024x1 .f32 := (Memref.whole cc0_stg7_0 : Memref sig .tc .vmem S1024x1 .f32).view
abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x1 .f32 := win0_7.stage (cfg0.slots t 7)
abbrev hs7 (t : Fin cfg0.N) : (ms7 t).IsWhole := hstage0_7 ((cfg0.slots t 7).cast nbuf0_7)
/-- The two running columns: whole scoped buffers of the kernel's own. -/
abbrev scA : Memref sig .tc .vmem S1024x1 .f32 := Memref.whole cc0_scratch0
abbrev scB : Memref sig .tc .vmem S1024x1 .f32 := Memref.whole cc0_scratch1
abbrev VSA : View sig .tc .vmem S1024x1 .f32 := scA.view
abbrev VSB : View sig .tc .vmem S1024x1 .f32 := scB.view

/-- What the launch hands the body beside the windows: the two running columns, each at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scA fullShare d) ∗ (∃ d, owns (c : Thread nD τ) scB fullShare d)) := by
  rw [scopedRest0_eq]; simp only [scA, scB, owns_whole]; try rfl

end Cert.Kernel.Tri

end
-- ==== Proof.Kernel.RunA.lean ====
/-
  The mining kernel's body run at the first column tile of a row of tiles.
-/
import proofs.«180511_j70368744178174_1_alg».proof.Proof.Kernel.Base

set_option maxRecDepth 16384

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the first column tile of a row of tiles (j = 0): the running columns are reset, then the tile is folded in; the outputs are left as found. The pieces each written buffer ends with are found by the run itself. -/
noncomputable def runA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : condFirst i) (hc1 : ¬condLast i)
    (x0 : Vec F S1024x128 .bf16) (x1 : Vec F S1024x128 .bf16) (x2 : Vec F S1024x1 .f32) (x3 : Vec F S1x1024 .f32) (x4 : Vec F S1024x1 .i32) (x5 : Vec F S1x1024 .i32) :
    Σ' (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Tri

end
-- ==== Proof.Kernel.RunB.lean ====
/-
  The mining kernel's body run at an inner column tile of a row of tiles.
-/
import proofs.«180511_j70368744178174_1_alg».proof.Proof.Kernel.RunA

set_option maxRecDepth 16384

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at a column tile strictly inside a row of tiles (0 < j < 7): the tile is folded into the running columns the point before left; the outputs are left as found. The pieces each written buffer ends with are found by the run itself. -/
noncomputable def runB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬condFirst i) (hc1 : ¬condLast i)
    (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    Σ' (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Tri

end
-- ==== Proof.Kernel.RunC.lean ====
/-
  The mining kernel's body run at the last column tile of a row of tiles.
-/
import proofs.«180511_j70368744178174_1_alg».proof.Proof.Kernel.RunB

set_option maxRecDepth 16384

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the last column tile of a row of tiles (j = 7): the tile is folded into the running columns the point before left, and they are copied to the two output blocks. The pieces each written buffer ends with are found by the run itself. -/
noncomputable def runC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬condFirst i) (hc1 : condLast i)
    (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.Kernel.Tri

end
-- ==== Proof.Kernel.Frame.lean ====
/-
  The mining kernel's frame data. After the body at point 8 i + j the two running columns hold, row by row of row
  tile i, the largest masked positive distance and the smallest masked negative distance over column tiles 0 … j;
  here they are stated as what the three runs leave, point after point, and the body is shown to take each point's
  state to the next one's. The two outputs are stored into at j = 7 only and are idle elsewhere.
-/
import proofs.«180511_j70368744178174_1_alg».proof.Proof.Kernel.RunC

set_option maxRecDepth 16384

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's four columns: the two output blocks, then the running maximum and the running minimum. -/
abbrev Cols (F : FTy → Type) [FloatOps F] : Type := Vec F S1024x1 .f32 × Vec F S1024x1 .f32 × Vec F S1024x1 .f32 × Vec F S1024x1 .f32

/-- The three runs at a grid point, on the memrefs and blocks the pipeline calls the body with there. -/
abbrev rA (c : Dev nD) (t : Fin cfg0.N) (h0 : condFirst (grid0.coords t)) (h1 : ¬condLast (grid0.coords t)) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scB (Memref.isWhole_whole _) h0 h1 (iblk m c 0 t) (iblk m c 1 t) (iblk m c 2 t) (iblk m c 3 t) (iblk m c 4 t) (iblk m c 5 t)
abbrev rB (c : Dev nD) (t : Fin cfg0.N) (h0 : ¬condFirst (grid0.coords t)) (h1 : ¬condLast (grid0.coords t)) (xs0 xs1 : Vec F S1024x1 .f32) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scB (Memref.isWhole_whole _) h0 h1 (iblk m c 0 t) (iblk m c 1 t) (iblk m c 2 t) (iblk m c 3 t) (iblk m c 4 t) (iblk m c 5 t) xs0 xs1
abbrev rC (c : Dev nD) (t : Fin cfg0.N) (h0 : ¬condFirst (grid0.coords t)) (h1 : condLast (grid0.coords t)) (xs0 xs1 : Vec F S1024x1 .f32) :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scB (Memref.isWhole_whole _) h0 h1 (iblk m c 0 t) (iblk m c 1 t) (iblk m c 2 t) (iblk m c 3 t) (iblk m c 4 t) (iblk m c 5 t) xs0 xs1

/-! ## The written buffers are covered by what each run stores -/

theorem coverA_A (c : Dev nD) (t : Fin cfg0.N) (h0 : condFirst (grid0.coords t)) (h1 : ¬condLast (grid0.coords t)) (y : S1024x1.Idx) :
    ∃ pc ∈ (rA m c t h0 h1).1, y ∈ pc.1.set :=
  View.cover_of_tiledL (rA m c t h0 h1).1 S1024x1.size (by sl_kernel_rfl) y
theorem coverA_B (c : Dev nD) (t : Fin cfg0.N) (h0 : condFirst (grid0.coords t)) (h1 : ¬condLast (grid0.coords t)) (y : S1024x1.Idx) :
    ∃ pc ∈ (rA m c t h0 h1).2.1, y ∈ pc.1.set :=
  View.cover_of_tiledL (rA m c t h0 h1).2.1 S1024x1.size (by sl_kernel_rfl) y
theorem coverB_A (c : Dev nD) (t : Fin cfg0.N) (h0 : ¬condFirst (grid0.coords t)) (h1 : ¬condLast (grid0.coords t)) (xs0 xs1 : Vec F S1024x1 .f32) (y : S1024x1.Idx) :
    ∃ pc ∈ (rB m c t h0 h1 xs0 xs1).1, y ∈ pc.1.set :=
  View.cover_of_tiledL (rB m c t h0 h1 xs0 xs1).1 S1024x1.size (by sl_kernel_rfl) y
theorem coverB_B (c : Dev nD) (t : Fin cfg0.N) (h0 : ¬condFirst (grid0.coords t)) (h1 : ¬condLast (grid0.coords t)) (xs0 xs1 : Vec F S1024x1 .f32) (y : S1024x1.Idx) :
    ∃ pc ∈ (rB m c t h0 h1 xs0 xs1).2.1, y ∈ pc.1.set :=
  View.cover_of_tiledL (rB m c t h0 h1 xs0 xs1).2.1 S1024x1.size (by sl_kernel_rfl) y
theorem coverC_6 (c : Dev nD) (t : Fin cfg0.N) (h0 : ¬condFirst (grid0.coords t)) (h1 : condLast (grid0.coords t)) (xs0 xs1 : Vec F S1024x1 .f32) (y : S1024x1.Idx) :
    ∃ pc ∈ (rC m c t h0 h1 xs0 xs1).1, y ∈ pc.1.set :=
  View.cover_of_tiledL (rC m c t h0 h1 xs0 xs1).1 S1024x1.size (by sl_kernel_rfl) y
theorem coverC_7 (c : Dev nD) (t : Fin cfg0.N) (h0 : ¬condFirst (grid0.coords t)) (h1 : condLast (grid0.coords t)) (xs0 xs1 : Vec F S1024x1 .f32) (y : S1024x1.Idx) :
    ∃ pc ∈ (rC m c t h0 h1 xs0 xs1).2.1, y ∈ pc.1.set :=
  View.cover_of_tiledL (rC m c t h0 h1 xs0 xs1).2.1 S1024x1.size (by sl_kernel_rfl) y
theorem coverC_A (c : Dev nD) (t : Fin cfg0.N) (h0 : ¬condFirst (grid0.coords t)) (h1 : condLast (grid0.coords t)) (xs0 xs1 : Vec F S1024x1 .f32) (y : S1024x1.Idx) :
    ∃ pc ∈ (rC m c t h0 h1 xs0 xs1).2.2.1, y ∈ pc.1.set :=
  View.cover_of_tiledL (rC m c t h0 h1 xs0 xs1).2.2.1 S1024x1.size (by sl_kernel_rfl) y
theorem coverC_B (c : Dev nD) (t : Fin cfg0.N) (h0 : ¬condFirst (grid0.coords t)) (h1 : condLast (grid0.coords t)) (xs0 xs1 : Vec F S1024x1 .f32) (y : S1024x1.Idx) :
    ∃ pc ∈ (rC m c t h0 h1 xs0 xs1).2.2.2.1, y ∈ pc.1.set :=
  View.cover_of_tiledL (rC m c t h0 h1 xs0 xs1).2.2.2.1 S1024x1.size (by sl_kernel_rfl) y

/-! ## What each case leaves -/

/-- The first tile of a row of tiles: the outputs untouched (a placeholder nothing consults), the running columns
    at what the run stored. -/
def colsA (c : Dev nD) (t : Fin cfg0.N) (h0 : condFirst (grid0.coords t)) (h1 : ¬condLast (grid0.coords t)) : Cols F :=
  (VO6.read (Elt F) VO6.junk, VO7.read (Elt F) VO7.junk,
    VSA.read (Elt F) (VSA.writes (Elt F) VSA.junk (rA m c t h0 h1).1),
    VSB.read (Elt F) (VSB.writes (Elt F) VSB.junk (rA m c t h0 h1).2.1))
/-- An inner tile: the same, over the running columns the point before left. -/
def colsB (c : Dev nD) (t : Fin cfg0.N) (h0 : ¬condFirst (grid0.coords t)) (h1 : ¬condLast (grid0.coords t)) (xs0 xs1 : Vec F S1024x1 .f32) : Cols F :=
  (VO6.read (Elt F) VO6.junk, VO7.read (Elt F) VO7.junk,
    VSA.read (Elt F) (VSA.writes (Elt F) VSA.junk (rB m c t h0 h1 xs0 xs1).1),
    VSB.read (Elt F) (VSB.writes (Elt F) VSB.junk (rB m c t h0 h1 xs0 xs1).2.1))
/-- The last tile: the outputs and the running columns at what the run stored. -/
def colsC (c : Dev nD) (t : Fin cfg0.N) (h0 : ¬condFirst (grid0.coords t)) (h1 : condLast (grid0.coords t)) (xs0 xs1 : Vec F S1024x1 .f32) : Cols F :=
  (VO6.read (Elt F) (VO6.writes (Elt F) VO6.junk (rC m c t h0 h1 xs0 xs1).1),
    VO7.read (Elt F) (VO7.writes (Elt F) VO7.junk (rC m c t h0 h1 xs0 xs1).2.1),
    VSA.read (Elt F) (VSA.writes (Elt F) VSA.junk (rC m c t h0 h1 xs0 xs1).2.2.1),
    VSB.read (Elt F) (VSB.writes (Elt F) VSB.junk (rC m c t h0 h1 xs0 xs1).2.2.2.1))

/-! ## Point after point -/

/-- What the four columns hold after the body at position `n`: the case the position is in, run over the running
    columns the position before left. -/
def outsAt (c : Dev nD) : (n : ℕ) → n < cfg0.N → Cols F
  | 0, hn => colsA m c ⟨0, hn⟩ ((hcondFirst ⟨0, hn⟩).mpr (Nat.zero_mod _)) (fun h => (fun h => by (try dsimp only at h); omega) ((hcondLast ⟨0, hn⟩).mp h))
  | n + 1, hn =>
    if h0 : (n + 1) % 8 = 0 then
      if h1 : (n + 1) % 8 = 7 then
        False.elim (by omega)
      else
        colsA m c ⟨n + 1, hn⟩ ((hcondFirst ⟨n + 1, hn⟩).mpr h0) (fun h => h1 ((hcondLast ⟨n + 1, hn⟩).mp h))
    else
      if h1 : (n + 1) % 8 = 7 then
        colsC m c ⟨n + 1, hn⟩ (fun h => h0 ((hcondFirst ⟨n + 1, hn⟩).mp h)) ((hcondLast ⟨n + 1, hn⟩).mpr h1) (outsAt c n (Nat.lt_of_succ_lt hn)).2.2.1 (outsAt c n (Nat.lt_of_succ_lt hn)).2.2.2
      else
        colsB m c ⟨n + 1, hn⟩ (fun h => h0 ((hcondFirst ⟨n + 1, hn⟩).mp h)) (fun h => h1 ((hcondLast ⟨n + 1, hn⟩).mp h)) (outsAt c n (Nat.lt_of_succ_lt hn)).2.2.1 (outsAt c n (Nat.lt_of_succ_lt hn)).2.2.2

theorem outsAt_A (c : Dev nD) (t : Fin cfg0.N) (h0 : t.val % 8 = 0) (h1 : ¬t.val % 8 = 7) :
    outsAt m c t.val t.isLt = colsA m c t ((hcondFirst t).mpr h0) (fun h => h1 ((hcondLast t).mp h)) := by
  obtain ⟨n, hn⟩ := t
  cases n with
  | zero => exact rfl
  | succ n => exact (dif_pos h0).trans ((dif_neg h1).trans rfl)

theorem outsAt_B (c : Dev nD) (t : Fin cfg0.N) (h0 : ¬t.val % 8 = 0) (h1 : ¬t.val % 8 = 7) :
    outsAt m c t.val t.isLt = colsB m c t (fun h => h0 ((hcondFirst t).mp h)) (fun h => h1 ((hcondLast t).mp h))
      (outsAt m c (t.val - 1) (Nat.lt_of_le_of_lt (Nat.sub_le _ _) t.isLt)).2.2.1 (outsAt m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 8 = 0) (h1 : t.val % 8 = 7) :
    outsAt m c t.val t.isLt = colsC m c t (fun h => h0 ((hcondFirst t).mp h)) ((hcondLast t).mpr h1)
      (outsAt m c (t.val - 1) (Nat.lt_of_le_of_lt (Nat.sub_le _ _) t.isLt)).2.2.1 (outsAt m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The body's invariant before position `n`: before the first point the two running columns at some contents,
    afterwards at what the position before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scA fullShare ((outsAt m c n hn).2.2.1) ∗ owns (c : Thread nD τ) scB fullShare ((outsAt m c n hn).2.2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scA fullShare ((outsAt m c n hn).2.2.1) ∗ owns (c : Thread nD τ) scB fullShare ((outsAt m c n hn).2.2.2)) := rfl

theorem PhiS_pos (c : Dev nD) (n : ℕ) (h : n ≤ cfg0.N) (hz : n ≠ 0) :
    PhiS m c n h = iprop(owns (c : Thread nD τ) scA fullShare ((outsAt m c (n - 1) (by omega)).2.2.1) ∗ owns (c : Thread nD τ) scB fullShare ((outsAt m c (n - 1) (by omega)).2.2.2)) := by
  cases n with
  | zero => exact absurd rfl hz
  | succ n => rfl

/-! ## The pipeline's proof data -/

/-- The arrays as the region finds them; each input's buffer at its block after the body, each output's at
    `outsAt`; the invariant above; the embeddings' array, which two windows read, held half and half by them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]
theorem after7 (c : Dev nD) (t : Fin cfg0.N) : (dats m 0 c).after 7 t = (outsAt m c t.val t.isLt).2.1 := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' buffers hold their blocks; the point is in one of the three cases; that case's
    run applies, taking the running columns from what the point before left (from anything at the very first
    point) to this point's, and storing the outputs at j = 7 only. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [liveIn0 (grid0.coords t)], after0]
  rw [show (dats m 0 c).leavesExact 1 t = owns (c : Thread nD τ) (ms1 t) fullShare ((dats m 0 c).after 1 t) from by
    unfold Dat.leavesExact; rw [liveIn1 (grid0.coords t)], after1]
  rw [show (dats m 0 c).leavesExact 2 t = owns (c : Thread nD τ) (ms2 t) fullShare ((dats m 0 c).after 2 t) from by
    unfold Dat.leavesExact; rw [liveIn2 (grid0.coords t)], after2]
  rw [show (dats m 0 c).leavesExact 3 t = owns (c : Thread nD τ) (ms3 t) fullShare ((dats m 0 c).after 3 t) from by
    unfold Dat.leavesExact; rw [liveIn3 (grid0.coords t)], after3]
  rw [show (dats m 0 c).leavesExact 4 t = owns (c : Thread nD τ) (ms4 t) fullShare ((dats m 0 c).after 4 t) from by
    unfold Dat.leavesExact; rw [liveIn4 (grid0.coords t)], after4]
  rw [show (dats m 0 c).leavesExact 5 t = owns (c : Thread nD τ) (ms5 t) fullShare ((dats m 0 c).after 5 t) from by
    unfold Dat.leavesExact; rw [liveIn5 (grid0.coords t)], after5]
  by_cases h0 : t.val % 8 = 0
  · by_cases h1 : t.val % 8 = 7
    · exfalso; omega
    ·
      rw [Dat.leavesExact_idle (dats m 0 c) 6 t (idleOut6 t (fun h => h1 ((hcondLast t).mp h))) (noFlush6 t (fun h => h1 ((hcondLast t).mp h)))]
      rw [Dat.leavesExact_idle (dats m 0 c) 7 t (idleOut7 t (fun h => h1 ((hcondLast t).mp h))) (noFlush7 t (fun h => h1 ((hcondLast t).mp h)))]
      rw [outsAt_A m c t h0 h1]
      unfold colsA; (try dsimp only)
      by_cases hz : t.val = 0
      ·
        rw [PhiS_castSucc m c t, PhiS_zero m c _ _ hz, scoped_eq]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((rA m c t ((hcondFirst t).mpr h0) (fun h => h1 ((hcondLast t).mp h))).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1]
        · isplitl [HS0]
          · unfold owns; iexists _; isplitr
            swap; · iexact HS0
            ipureintro; exact View.read_writes_of_cover _ _ _ _ _ (coverA_A m c t _ _)
          unfold owns; iexists _; isplitr
          swap; · iexact HS1
          ipureintro; exact View.read_writes_of_cover _ _ _ _ _ (coverA_B m c t _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      ·
        rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((rA m c t ((hcondFirst t).mpr h0) (fun h => h1 ((hcondLast t).mp h))).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HS0 HS1]
        · isplitl [HS0]
          · unfold owns; iexists _; isplitr
            swap; · iexact HS0
            ipureintro; exact View.read_writes_of_cover _ _ _ _ _ (coverA_A m c t _ _)
          unfold owns; iexists _; isplitr
          swap; · iexact HS1
          ipureintro; exact View.read_writes_of_cover _ _ _ _ _ (coverA_B m c t _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
  · by_cases h1 : t.val % 8 = 7
    ·
      rw [show (dats m 0 c).leavesExact 6 t = owns (c : Thread nD τ) (ms6 t) fullShare ((dats m 0 c).after 6 t) from by
        unfold Dat.leavesExact; rw [liveOut6 t ((hcondLast t).mpr h1)], after6]
      rw [show (dats m 0 c).leavesExact 7 t = owns (c : Thread nD τ) (ms7 t) fullShare ((dats m 0 c).after 7 t) from by
        unfold Dat.leavesExact; rw [liveOut7 t ((hcondLast t).mpr h1)], after7]
      rw [outsAt_C m c t h0 h1]
      unfold colsC; (try dsimp only)
      by_cases hz : t.val = 0
      · exfalso; omega
      ·
        rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((rC m c t (fun h => h0 ((hcondFirst t).mp h)) ((hcondLast t).mpr h1) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%e6, H6⟩, ⟨%e7, H7⟩, ⟨%es0, HS0⟩, ⟨%es1, HS1⟩⟩
        isplitl [HS0 HS1]
        · isplitl [HS0]
          · unfold owns; iexists _; isplitr
            swap; · iexact HS0
            ipureintro; exact View.read_writes_of_cover _ _ _ _ _ (coverC_A m c t _ _ _ _)
          unfold owns; iexists _; isplitr
          swap; · iexact HS1
          ipureintro; exact View.read_writes_of_cover _ _ _ _ _ (coverC_B m c t _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverC_6 m c t _ _ _ _)
        · unfold owns; iexists _; isplitr
          swap; · iexact H7
          ipureintro; exact View.read_writes_of_cover _ _ _ _ _ (coverC_7 m c t _ _ _ _)
    ·
      rw [Dat.leavesExact_idle (dats m 0 c) 6 t (idleOut6 t (fun h => h1 ((hcondLast t).mp h))) (noFlush6 t (fun h => h1 ((hcondLast t).mp h)))]
      rw [Dat.leavesExact_idle (dats m 0 c) 7 t (idleOut7 t (fun h => h1 ((hcondLast t).mp h))) (noFlush7 t (fun h => h1 ((hcondLast t).mp h)))]
      rw [outsAt_B m c t h0 h1]
      unfold colsB; (try dsimp only)
      by_cases hz : t.val = 0
      · exfalso; omega
      ·
        rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((rB m c t (fun h => h0 ((hcondFirst t).mp h)) (fun h => h1 ((hcondLast t).mp h)) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1]
        · isplitl [HS0]
          · unfold owns; iexists _; isplitr
            swap; · iexact HS0
            ipureintro; exact View.read_writes_of_cover _ _ _ _ _ (coverB_A m c t _ _ _ _)
          unfold owns; iexists _; isplitr
          swap; · iexact HS1
          ipureintro; exact View.read_writes_of_cover _ _ _ _ _ (coverB_B m c t _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- The invariant before the first point is what the launch hands the body. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the two running columns back, their contents forgotten. -/
theorem hout (c : Dev nD) : (dats m 0 c).Φ (Fin.last cfg0.N)
    ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro ⟨HS0, HS1⟩
  isplitl [HS0]
  · iexists _; iexact HS0
  iexists _; iexact HS1

end Cert.Kernel.Tri

end
-- ==== Proof.Kernel.Region.lean ====
/-
  The mining kernel's region launched inside @main. Two input windows read the same array (the embeddings cast
  to bf16, once by row tile and once by column tile): its buffer, whole when the region is entered, is divided
  between the two windows half and half, and rejoined when the region is left; every other array belongs to
  one window. After the region the host lines that finish the loss run on all unscoped buffers again.
-/
import proofs.«180511_j70368744178174_1_alg».proof.Proof.Kernel.Frame

set_option maxRecDepth 16384

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The arrays, one by one -/

/-- The pipeline's arrays at contents `Fv`, window by window: the shared array at the two halves. -/
theorem arrays_chain (c : Dev nD) (Fv : (w : Fin cfg0.W) → Buf (Elt F) ((cfg0.win w).arr.view.loc (c.tc : Thread nD τ))) :
    ((dats m 0 c).arrays Fv : sProp 𝕄)
      = iprop((((c : Thread nD τ).loc main_v0) ↦{fullShare.left} Fv 0) ∗ (((c : Thread nD τ).loc main_v0) ↦{fullShare.right} Fv 1)
          ∗ (((c : Thread nD τ).loc main_v3) ↦{fullShare} Fv 2) ∗ (((c : Thread nD τ).loc main_v4) ↦{fullShare} Fv 3)
          ∗ (((c : Thread nD τ).loc main_v5) ↦{fullShare} Fv 4) ∗ (((c : Thread nD τ).loc main_v6) ↦{fullShare} Fv 5)
          ∗ (((c : Thread nD τ).loc main_v7_0) ↦{fullShare} Fv 6) ∗ (((c : Thread nD τ).loc main_v7_1) ↦{fullShare} Fv 7)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-- The distinct buffers behind the arrays, one by one. -/
theorem arrBufs_chain (c : Dev nD) (Vv : (b : Ref sig .tc) → Buf (Elt F) ((c.tc : Thread nD τ).loc b)) :
    (arrBufs spec0 c Vv : sProp 𝕄)
      = iprop((((c : Thread nD τ).loc main_v0) ↦{fullShare} Vv main_v0) ∗ (((c : Thread nD τ).loc main_v3) ↦{fullShare} Vv main_v3)
          ∗ (((c : Thread nD τ).loc main_v4) ↦{fullShare} Vv main_v4) ∗ (((c : Thread nD τ).loc main_v5) ↦{fullShare} Vv main_v5)
          ∗ (((c : Thread nD τ).loc main_v6) ↦{fullShare} Vv main_v6) ∗ (((c : Thread nD τ).loc main_v7_0) ↦{fullShare} Vv main_v7_0)
          ∗ (((c : Thread nD τ).loc main_v7_1) ↦{fullShare} Vv main_v7_1)) := by
  unfold arrBufs
  rw [bigSep_eq_bigSepL_of_eq [main_v0, main_v3, main_v4, main_v5, main_v6, main_v7_0, main_v7_1] (by decide) (by decide)]
  rfl

/-- The buffers behind the arrays, whole, are the pipeline's arrays at the same contents: the shared array's
    buffer is the two windows' halves of it. -/
theorem arrays_of_bufs (c : Dev nD) (Vv : (b : Ref sig .tc) → Buf (Elt F) ((c.tc : Thread nD τ).loc b))
    (Fv : (w : Fin cfg0.W) → Buf (Elt F) ((cfg0.win w).arr.view.loc (c.tc : Thread nD τ))) (hF : ∀ w, Fv w = Vv (arrRef spec0 w)) :
    (arrBufs spec0 c Vv : sProp 𝕄) ⊣⊢ (dats m 0 c).arrays Fv := by
  rw [arrays_chain, arrBufs_chain, hF 0, hF 1, hF 2, hF 3, hF 4, hF 5, hF 6, hF 7]
  constructor
  · iintro ⟨H0, H3, H4, H5, H6, H70, H71⟩
    icases (pointsTo_share (PosShare.mem_left_op_right fullShare)).1 $$ H0 with ⟨Ha, Hb⟩
    isplitl [Ha]; · iexact Ha
    isplitl [Hb]; · iexact Hb
    isplitl [H3]; · iexact H3
    isplitl [H4]; · iexact H4
    isplitl [H5]; · iexact H5
    isplitl [H6]; · iexact H6
    isplitl [H70]; · iexact H70
    iexact H71
  · iintro ⟨Ha, Hb, H3, H4, H5, H6, H70, H71⟩
    isplitl [Ha Hb]
    · iapply (pointsTo_share (PosShare.mem_left_op_right fullShare)).2
      isplitl [Ha]; · iexact Ha
      iexact Hb
    isplitl [H3]; · iexact H3
    isplitl [H4]; · iexact H4
    isplitl [H5]; · iexact H5
    isplitl [H6]; · iexact H6
    isplitl [H70]; · iexact H70
    iexact H71

/-! ## The buffers when the region is left, and at the end of @main -/

attribute [local instance] Classical.propDecidable

/-- The core's buffers when the region is left: the two outputs at what the write-backs leave, every other
    buffer as the region found it. -/
def Vx (c : Dev nD) : Valuation τ sig (Elt F) :=
  Function.update (Function.update (V0 m c) (Proc.devRef .tc main_v7_0) ((dats m 0 c).arrAt 6 cfg0.N))
    (Proc.devRef .tc main_v7_1) ((dats m 0 c).arrAt 7 cfg0.N)

/-- The core's buffers at the end of @main: the later host lines run from there. -/
def Vt (c : Dev nD) : Valuation τ sig (Elt F) := StableHlo.after (List.flatten [hostOps1]) (Vx m c)

theorem Vx_of_ne (c : Dev nD) (b : Ref sig .tc) (h6 : b ≠ main_v7_0) (h7 : b ≠ main_v7_1) :
    Vx m c (Proc.devRef .tc b) = V m c b := by
  unfold Vx
  rw [Function.update_of_ne (StableHlo.devRef_ne_of_ne h7), Function.update_of_ne (StableHlo.devRef_ne_of_ne h6)]

/-- Every array of the pipeline is, when the region is left, at what the library computes for it. -/
theorem Vx_arr (c : Dev nD) : ∀ w : Fin cfg0.W, Vx m c (Proc.devRef .tc (arrRef spec0 w)) = (dats m 0 c).arrAt w cfg0.N
  | ⟨0, _⟩ => (Vx_of_ne m c main_v0 (by decide) (by decide)).trans ((A_eq m c 0).symm.trans ((dats m 0 c).arrAt_in 0 rfl _).symm)
  | ⟨1, _⟩ => (Vx_of_ne m c main_v0 (by decide) (by decide)).trans ((A_eq m c 1).symm.trans ((dats m 0 c).arrAt_in 1 rfl _).symm)
  | ⟨2, _⟩ => (Vx_of_ne m c main_v3 (by decide) (by decide)).trans ((A_eq m c 2).symm.trans ((dats m 0 c).arrAt_in 2 rfl _).symm)
  | ⟨3, _⟩ => (Vx_of_ne m c main_v4 (by decide) (by decide)).trans ((A_eq m c 3).symm.trans ((dats m 0 c).arrAt_in 3 rfl _).symm)
  | ⟨4, _⟩ => (Vx_of_ne m c main_v5 (by decide) (by decide)).trans ((A_eq m c 4).symm.trans ((dats m 0 c).arrAt_in 4 rfl _).symm)
  | ⟨5, _⟩ => (Vx_of_ne m c main_v6 (by decide) (by decide)).trans ((A_eq m c 5).symm.trans ((dats m 0 c).arrAt_in 5 rfl _).symm)
  | ⟨6, _⟩ => by
    show Vx m c (Proc.devRef .tc main_v7_0) = _
    unfold Vx
    rw [Function.update_of_ne (StableHlo.devRef_ne_of_ne (by decide)), Function.update_self]
    rfl
  | ⟨7, _⟩ => by
    show Vx m c (Proc.devRef .tc main_v7_1) = _
    unfold Vx
    rw [Function.update_self]
    rfl

theorem single_sub (W : List (Ref sig .tc)) (y : Ref sig .tc) (hy : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, hy, rfl⟩))

/-- The later host lines write their own results only. -/
theorem tail_writes : (List.flatten [hostOps1] : List (HloOp τ sig (Elt F))).Forall fun op =>
    op.writes ⊆ (([main_v8, main_v9, main_v10, main_cst_0, main_v11, main_v12, main_cst_1, main_v13, main_v14, main_cst_2, main_v15, main_cst_3, main_v16] : List (Ref sig .tc)).map (Proc.devRef (τ := τ) .tc)).toFinset :=
  ⟨single_sub _ _ (by decide), single_sub _ _ (by decide), single_sub _ _ (by decide), single_sub _ _ (by decide),
    single_sub _ _ (by decide), single_sub _ _ (by decide), single_sub _ _ (by decide), single_sub _ _ (by decide),
    single_sub _ _ (by decide), single_sub _ _ (by decide), single_sub _ _ (by decide), single_sub _ _ (by decide),
    single_sub _ _ (by decide)⟩

/-- So every array of the pipeline ends @main as the region left it. -/
theorem Vt_arr (c : Dev nD) (w : Fin cfg0.W) : Vt m c (Proc.devRef .tc (arrRef spec0 w)) = (dats m 0 c).arrAt w cfg0.N :=
  (StableHlo.after_of_writes_sub (List.flatten [hostOps1]) (Vx m c) tail_writes
    ((by decide : ∀ w : Fin 8, arrRef spec0 w ∉ ([main_v8, main_v9, main_v10, main_cst_0, main_v11, main_v12, main_cst_1, main_v13, main_v14, main_cst_2, main_v15, main_cst_3, main_v16] : List (Ref sig .tc))) w)).trans (Vx_arr m c w)

theorem hsub1 : ∀ ops ∈ ([hostOps1] : List (List (HloOp τ sig (Elt F)))), ∀ op ∈ ops, op.bufs ⊆ ucRefs τ sig := by
  intro ops hops op hop
  simp only [List.mem_cons, List.mem_nil_iff, or_false] at hops
  subst hops
  exact sub_ucRefs op ((List.forall_iff_forall_mem.mp hostOps1_sub) op hop)

theorem hfresh1 : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem rest_ne6 : ∀ b ∈ ((Finset.univ.filter fun b : Ref sig .tc => ¬ b.isScoped) \ Finset.univ.image (arrRef spec0)), b ≠ main_v7_0 :=
  fun b hb e => (Finset.mem_sdiff.mp hb).2 (Finset.mem_image.mpr ⟨(6 : Fin 8), Finset.mem_univ _, e.symm⟩)
theorem rest_ne7 : ∀ b ∈ ((Finset.univ.filter fun b : Ref sig .tc => ¬ b.isScoped) \ Finset.univ.image (arrRef spec0)), b ≠ main_v7_1 :=
  fun b hb e => (Finset.mem_sdiff.mp hb).2 (Finset.mem_image.mpr ⟨(7 : Fin 8), Finset.mem_univ _, e.symm⟩)

/-! ## The host lines after the region -/

set_option backward.isDefEq.respectTransparency.types false in
/-- From the region's exit — the arrays as the write-backs left them, the other unscoped buffers as the region found
    them — the later host lines run on all unscoped buffers (the shared array's halves rejoined) and hand the arrays
    back unchanged, the other buffers at what the lines compute. -/
theorem htail (c : Dev nD) (Q' : PUnit → sProp 𝕄) :
    iprop((iprop((dats m 0 c).arrays ((dats m 0 c).arrAt · cfg0.N)
              ∗ unscopedRest (Ix := Unit) (Name := ℕ) (U := UR sig nD τ) (Lvl := ℕ) spec0 c (fun b => Vt m c (Proc.devRef .tc b))) -∗ Q' ⟨⟩)
        ∗ boundary (c.tc : Thread nD τ) ∗ (dats m 0 c).arrays ((dats m 0 c).arrAt · cfg0.N)
        ∗ unscopedRest (Ix := Unit) (Name := ℕ) (U := UR sig nD τ) (Lvl := ℕ) spec0 c (V m c))
      ⊢ wp frame (wpE (Pipeline.defs (fun q => Cfg.toPCfg (Val := Elt F) (cfgs q)) defs₀) (Variants.lift Variants.none) (c.tc : Thread nD τ) none) Set.univ
          (Pipeline.chain [StableHlo.seq hostOps1]) Q' := by
  have hrest : (unscopedRest (Ix := Unit) (Name := ℕ) (U := UR sig nD τ) (Lvl := ℕ) spec0 c (V m c) : sProp 𝕄)
      = unscopedRest spec0 c (fun b => Vx m c (Proc.devRef .tc b)) := by
    unfold unscopedRest
    exact bigSep_congr fun b hb => by beta_reduce; rw [Vx_of_ne m c b (rest_ne6 b hb) (rest_ne7 b hb)]
  have hjoin : iprop((dats m 0 c).arrays ((dats m 0 c).arrAt · cfg0.N)
        ∗ unscopedRest (Ix := Unit) (Name := ℕ) (U := UR sig nD τ) (Lvl := ℕ) spec0 c (V m c))
      ⊢ (StableHlo.held (c.tc : Thread nD τ) (ucRefs τ sig) (Vx m c) : sProp 𝕄) := by
    rw [← unscopedBufs_held, unscopedBufs_split₀ cfgs (0 : Fin 1) winFacts₀0.arr_unscoped c, hrest]
    exact sep_mono (arrays_of_bufs m c _ _ (fun w => (Vx_arr m c w).symm)).2 .rfl
  have hsplit' : (StableHlo.held (c.tc : Thread nD τ) (ucRefs τ sig) (StableHlo.after (List.flatten [hostOps1]) (Vx m c)) : sProp 𝕄)
      ⊢ iprop((dats m 0 c).arrays ((dats m 0 c).arrAt · cfg0.N)
          ∗ unscopedRest (Ix := Unit) (Name := ℕ) (U := UR sig nD τ) (Lvl := ℕ) spec0 c (fun b => Vt m c (Proc.devRef .tc b))) := by
    rw [← unscopedBufs_held, unscopedBufs_split₀ cfgs (0 : Fin 1) winFacts₀0.arr_unscoped c]
    exact sep_mono (arrays_of_bufs m c _ _ (fun w => (Vt_arr m c w).symm)).1 .rfl
  rw [← List.append_nil ([StableHlo.seq hostOps1] : List (Prog (TpuEff nD τ sig (Elt F) (Pipeline.Sig Λ₀ (Fin 1) fun p => (pcfgs (F := F) p).Adm) .tc) PUnit))]
  iintro ⟨Hk, Hb, Ha, Hr⟩
  iapply (wp_seqs_then (fun q => Cfg.toPCfg (Val := Elt F) (cfgs q)) defs₀ Variants.none c (ucRefs τ sig) [] [hostOps1] hsub1 hfresh1 (Vx m c)) $$ [Hb Ha Hr]
  · isplitl [Hb]; · iexact Hb
    iapply hjoin
    isplitl [Ha]; · iexact Ha
    iexact Hr
  iintro ⟨Hb, Hh⟩
  rw [chain_nil, wp_pure]
  imodintro
  iapply Hk
  iapply hsplit'; iexact Hh

/-! ## The run -/

set_option backward.isDefEq.respectTransparency.types false in
/-- Every weakly fair execution of @main terminates; at the end every array of the pipeline is at what the library
    computes from the proof data and every other unscoped buffer at what the host lines compute from there. -/
theorem run_main : θ_run defs (onTc (τ := τ) (main (F := F))) ⟨m, fun _ => 0, ρ⟩
    (fun r => ∀ c : Dev nD, (∀ w, r.2.mem ((spec0 w).arr.view.loc (c.tc : Thread nD τ)) = (dats m 0 c).arrAt w cfg0.N)
      ∧ ∀ b ∈ restRefs sig spec0, r.2.mem ((c.tc : Thread nD τ).loc b) = Vt m c (Proc.devRef .tc b)) := by
  exact θ_run_region_noSem_pf_tail (fun p => (cfgs p).toPCfg) (fun p => (cfgs p).toPCfg_adm) (dats m) () cellOf_inj (0 : Fin 1) winFacts₀0 (PreFacts.none _) emb₁ defs₀ Variants.none
    m ρ main (fun _ => Pipeline.chain [StableHlo.seq hostOps1]) (fun c => (body_obligation m c).loose) block_pos0 arr_whole0 stage_whole0 (fun _ _ => rfl)
    (initOf (cells cfgs cellOf_inj) (launchToks cfgs cellOf_inj)) .rfl (V m) (hmain m Variants.none)
    (fun c => (arrays_of_bufs m c _ _ (fun w => by rw [show (dats m 0 c).arrAt w 0 = (dats m 0 c).A w from rfl, A_eq])).1)
    (fun _ k => k.elim0)
    (fun _ => iprop(emp)) (fun _ => iprop(emp))
    (fun c => unscopedRest (Ix := Unit) (Name := ℕ) (U := UR sig nD τ) (Lvl := ℕ) spec0 c (V m c))
    (fun c => unscopedRest (Ix := Unit) (Name := ℕ) (U := UR sig nD τ) (Lvl := ℕ) spec0 c (fun b => Vt m c (Proc.devRef .tc b)))
    (fun c => by
      rw [unscopedRestP_none]
      iintro H
      isplitr; · iempintro
      iexact H)
    (fun c => by
      iintro ⟨-, -, H⟩
      iapply (hin m c); iexact H)
    (fun c => (hout m c).trans (by
      iintro H
      isplitr; · iempintro
      iexact H))
    (fun c Q' => htail m c Q')
    (fun c s => ∀ b ∈ restRefs sig spec0, s.mem ((c.tc : Thread nD τ).loc b) = Vt m c (Proc.devRef .tc b))
    (fun c s' => by
      iintro ⟨-, HU, HSI⟩
      unfold unscopedRest
      imodintro
      iapply (pointsTo_read_all (restRefs sig spec0) (fun b => (c.tc : Thread nD τ).loc b) (fun b => Vt m c (Proc.devRef .tc b)) s')
      isplitl [HU] <;> iassumption)
    (fun s h c => ⟨(h c).1, (h c).2.2⟩)

end Cert.Kernel.Tri

end
-- ==== Proof.Kernel.FrameClaim.lean ====
/-
  The frame of the mining program: @main terminates on every weakly fair execution and its two arguments end as
  they began, since neither stretch of host lines nor the region writes them.
-/
import proofs.«180511_j70368744178174_1_alg».proof.Proof.Kernel.Region

set_option maxRecDepth 16384

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-- The host lines before the region write their own results only. -/
theorem head_writes : (List.flatten [hostOps0] : List (HloOp τ sig (Elt F))).Forall fun op =>
    op.writes ⊆ (([main_v0, main_v1, main_cst, main_v2, main_v3, main_v4, main_v5, main_v6] : List (Ref sig .tc)).map (Proc.devRef (τ := τ) .tc)).toFinset :=
  ⟨single_sub _ _ (by decide), single_sub _ _ (by decide), single_sub _ _ (by decide), single_sub _ _ (by decide),
    single_sub _ _ (by decide), single_sub _ _ (by decide), single_sub _ _ (by decide), single_sub _ _ (by decide)⟩

/-- A buffer that is no output of the region and that no host line writes ends @main as it began. -/
theorem Vt_keeps (c : Dev nD) (b : Ref sig .tc) (h6 : b ≠ main_v7_0) (h7 : b ≠ main_v7_1)
    (hT : b ∉ ([main_v8, main_v9, main_v10, main_cst_0, main_v11, main_v12, main_cst_1, main_v13, main_v14, main_cst_2, main_v15, main_cst_3, main_v16] : List (Ref sig .tc))) (hH : b ∉ ([main_v0, main_v1, main_cst, main_v2, main_v3, main_v4, main_v5, main_v6] : List (Ref sig .tc))) :
    Vt m c (Proc.devRef .tc b) = m ((c.tc : Thread nD τ).loc b) :=
  (StableHlo.after_of_writes_sub (List.flatten [hostOps1]) (Vx m c) tail_writes hT).trans
    ((Vx_of_ne m c b h6 h7).trans
      (StableHlo.after_of_writes_sub (List.flatten [hostOps0]) (fun b => m (c, b)) head_writes hH))

/-- The frame, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (by decide)).trans (Vt_keeps m c main_arg0 (by decide) (by decide) (by decide) (by decide)),
     ((h c).2 main_arg1 (by decide)).trans (Vt_keeps m c main_arg1 (by decide) (by decide) (by decide) (by decide))⟩)
    (run_main m ρ)

end Cert.Kernel.Tri

end
-- ==== Proof.KernelIdeal.Base.lean ====
/-
  What the three runs of the mining kernel's body and its launch share. The region is entered after the host lines
  that cast the embeddings, sum their squares row by row and reshape the sums and the labels; it visits an 8 x 8 grid
  of tiles, row tile i and column tile j at point 8 i + j. The body resets its two running columns (the hardest
  positive so far, the hardest negative so far) at j = 0, folds the tile's row maxima and minima into them at every
  point, and copies them to the two output blocks at j = 7.
-/
import proofs.«180511_j70368744178174_1_alg».proof.Proof.Gen.KernelIdeal.Launch
import proofs.«180511_j70368744178174_1_alg».proof.Proof.Gen.KernelIdeal.Skeleton
import proofs.«180511_j70368744178174_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The core's buffers after the host lines before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the earlier host lines, the region, the later host lines: it reduces to the region continued by the
    later lines, entered at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not
    fetched the block index has not moved. One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The reset's condition, j = 0, as the body computes it from the grid coordinates. -/
abbrev condFirst (i : grid0.Coords) : Prop := (Scalar.cmpi .ne (Scalar.extui (Scalar.cmpi .eq (BitVec.ofNat 32 (i 1).val) 0#32)) 0#32) = 1#1
/-- It holds at the points 8 i. -/
theorem hcondFirst : ∀ t : Fin cfg0.N, condFirst (grid0.coords t) ↔ t.val % 8 = 0 :=
  (by decide +kernel : ∀ t : Fin grid0.N, condFirst (grid0.coords t) ↔ t.val % 8 = 0)

/-- The write-out's condition, j = 7. -/
abbrev condLast (i : grid0.Coords) : Prop := k0_cond2 i = 1#1
/-- It holds at the points 8 i + 7. -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem liveIn0 : ∀ i, cfg0.idle 0 i = false := fun _ => rfl
theorem liveIn1 : ∀ i, cfg0.idle 1 i = false := fun _ => rfl
theorem liveIn2 : ∀ i, cfg0.idle 2 i = false := fun _ => rfl
theorem liveIn3 : ∀ i, cfg0.idle 3 i = false := fun _ => rfl
theorem liveIn4 : ∀ i, cfg0.idle 4 i = false := fun _ => rfl
theorem liveIn5 : ∀ i, cfg0.idle 5 i = false := fun _ => rfl
/-- Away from j = 7 the two outputs are idle and not written back. -/
theorem idleOut6 : ∀ t : Fin cfg0.N, ¬condLast (grid0.coords t) → cfg0.idle 6 (grid0.coords t) = true := by decide +kernel
theorem idleOut7 : ∀ t : Fin cfg0.N, ¬condLast (grid0.coords t) → cfg0.idle 7 (grid0.coords t) = true := by decide +kernel
theorem noFlush6 : ∀ t : Fin cfg0.N, ¬condLast (grid0.coords t) → (cfg0.win 6).flush t = false := by decide +kernel
theorem noFlush7 : ∀ t : Fin cfg0.N, ¬condLast (grid0.coords t) → (cfg0.win 7).flush t = false := by decide +kernel
/-- At j = 7 they are stored into. -/
theorem liveOut6 : ∀ t : Fin cfg0.N, condLast (grid0.coords t) → cfg0.idle 6 (grid0.coords t) = false := by decide +kernel
theorem liveOut7 : ∀ t : Fin cfg0.N, condLast (grid0.coords t) → cfg0.idle 7 (grid0.coords t) = false := by decide +kernel

/-! ## The memrefs the body is called with -/

/-- One staging buffer of each output, through which its contents are stated. -/
abbrev VO6 : View sig .tc .vmem S1024x1 .f32 := (Memref.whole cc0_stg6_0 : Memref sig .tc .vmem S1024x1 .f32).view
abbrev VO7 : View sig .tc .vmem S1024x1 .f32 := (Memref.whole cc0_stg7_0 : Memref sig .tc .vmem S1024x1 .f32).view
abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x1 .f32 := win0_7.stage (cfg0.slots t 7)
abbrev hs7 (t : Fin cfg0.N) : (ms7 t).IsWhole := hstage0_7 ((cfg0.slots t 7).cast nbuf0_7)
/-- The two running columns: whole scoped buffers of the kernel's own. -/
abbrev scA : Memref sig .tc .vmem S1024x1 .f32 := Memref.whole cc0_scratch0
abbrev scB : Memref sig .tc .vmem S1024x1 .f32 := Memref.whole cc0_scratch1
abbrev VSA : View sig .tc .vmem S1024x1 .f32 := scA.view
abbrev VSB : View sig .tc .vmem S1024x1 .f32 := scB.view

/-- What the launch hands the body beside the windows: the two running columns, each at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scA fullShare d) ∗ (∃ d, owns (c : Thread nD τ) scB fullShare d)) := by
  rw [scopedRest0_eq]; simp only [scA, scB, owns_whole]; try rfl

end Cert.KernelIdeal.Tri

end
-- ==== Proof.KernelIdeal.RunA.lean ====
/-
  The mining kernel's body run at the first column tile of a row of tiles.
-/
import proofs.«180511_j70368744178174_1_alg».proof.Proof.KernelIdeal.Base

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the first column tile of a row of tiles (j = 0): the running columns are reset, then the tile is folded in; the outputs are left as found. The pieces each written buffer ends with are found by the run itself. -/
noncomputable def runA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : condFirst i) (hc1 : ¬condLast i)
    (x0 : Vec F S1024x128 .bf16) (x1 : Vec F S1024x128 .bf16) (x2 : Vec F S1024x1 .f32) (x3 : Vec F S1x1024 .f32) (x4 : Vec F S1024x1 .i32) (x5 : Vec F S1x1024 .i32) :
    Σ' (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Tri

end
-- ==== Proof.KernelIdeal.RunB.lean ====
/-
  The mining kernel's body run at an inner column tile of a row of tiles.
-/
import proofs.«180511_j70368744178174_1_alg».proof.Proof.KernelIdeal.RunA

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at a column tile strictly inside a row of tiles (0 < j < 7): the tile is folded into the running columns the point before left; the outputs are left as found. The pieces each written buffer ends with are found by the run itself. -/
noncomputable def runB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬condFirst i) (hc1 : ¬condLast i)
    (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    Σ' (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Tri

end
-- ==== Proof.KernelIdeal.RunC.lean ====
/-
  The mining kernel's body run at the last column tile of a row of tiles.
-/
import proofs.«180511_j70368744178174_1_alg».proof.Proof.KernelIdeal.RunB

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the last column tile of a row of tiles (j = 7): the tile is folded into the running columns the point before left, and they are copied to the two output blocks. The pieces each written buffer ends with are found by the run itself. -/
noncomputable def runC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬condFirst i) (hc1 : condLast i)
    (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.Tri

end
-- ==== Proof.KernelIdeal.Frame.lean ====
/-
  The mining kernel's frame data. After the body at point 8 i + j the two running columns hold, row by row of row
  tile i, the largest masked positive distance and the smallest masked negative distance over column tiles 0 … j;
  here they are stated as what the three runs leave, point after point, and the body is shown to take each point's
  state to the next one's. The two outputs are stored into at j = 7 only and are idle elsewhere.
-/
import proofs.«180511_j70368744178174_1_alg».proof.Proof.KernelIdeal.RunC

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's four columns: the two output blocks, then the running maximum and the running minimum. -/
abbrev Cols (F : FTy → Type) [FloatOps F] : Type := Vec F S1024x1 .f32 × Vec F S1024x1 .f32 × Vec F S1024x1 .f32 × Vec F S1024x1 .f32

/-- The three runs at a grid point, on the memrefs and blocks the pipeline calls the body with there. -/
abbrev rA (c : Dev nD) (t : Fin cfg0.N) (h0 : condFirst (grid0.coords t)) (h1 : ¬condLast (grid0.coords t)) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scB (Memref.isWhole_whole _) h0 h1 (iblk m c 0 t) (iblk m c 1 t) (iblk m c 2 t) (iblk m c 3 t) (iblk m c 4 t) (iblk m c 5 t)
abbrev rB (c : Dev nD) (t : Fin cfg0.N) (h0 : ¬condFirst (grid0.coords t)) (h1 : ¬condLast (grid0.coords t)) (xs0 xs1 : Vec F S1024x1 .f32) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scB (Memref.isWhole_whole _) h0 h1 (iblk m c 0 t) (iblk m c 1 t) (iblk m c 2 t) (iblk m c 3 t) (iblk m c 4 t) (iblk m c 5 t) xs0 xs1
abbrev rC (c : Dev nD) (t : Fin cfg0.N) (h0 : ¬condFirst (grid0.coords t)) (h1 : condLast (grid0.coords t)) (xs0 xs1 : Vec F S1024x1 .f32) :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scB (Memref.isWhole_whole _) h0 h1 (iblk m c 0 t) (iblk m c 1 t) (iblk m c 2 t) (iblk m c 3 t) (iblk m c 4 t) (iblk m c 5 t) xs0 xs1

/-! ## The written buffers are covered by what each run stores -/

theorem coverA_A (c : Dev nD) (t : Fin cfg0.N) (h0 : condFirst (grid0.coords t)) (h1 : ¬condLast (grid0.coords t)) (y : S1024x1.Idx) :
    ∃ pc ∈ (rA m c t h0 h1).1, y ∈ pc.1.set :=
  View.cover_of_tiledL (rA m c t h0 h1).1 S1024x1.size (by sl_kernel_rfl) y
theorem coverA_B (c : Dev nD) (t : Fin cfg0.N) (h0 : condFirst (grid0.coords t)) (h1 : ¬condLast (grid0.coords t)) (y : S1024x1.Idx) :
    ∃ pc ∈ (rA m c t h0 h1).2.1, y ∈ pc.1.set :=
  View.cover_of_tiledL (rA m c t h0 h1).2.1 S1024x1.size (by sl_kernel_rfl) y
theorem coverB_A (c : Dev nD) (t : Fin cfg0.N) (h0 : ¬condFirst (grid0.coords t)) (h1 : ¬condLast (grid0.coords t)) (xs0 xs1 : Vec F S1024x1 .f32) (y : S1024x1.Idx) :
    ∃ pc ∈ (rB m c t h0 h1 xs0 xs1).1, y ∈ pc.1.set :=
  View.cover_of_tiledL (rB m c t h0 h1 xs0 xs1).1 S1024x1.size (by sl_kernel_rfl) y
theorem coverB_B (c : Dev nD) (t : Fin cfg0.N) (h0 : ¬condFirst (grid0.coords t)) (h1 : ¬condLast (grid0.coords t)) (xs0 xs1 : Vec F S1024x1 .f32) (y : S1024x1.Idx) :
    ∃ pc ∈ (rB m c t h0 h1 xs0 xs1).2.1, y ∈ pc.1.set :=
  View.cover_of_tiledL (rB m c t h0 h1 xs0 xs1).2.1 S1024x1.size (by sl_kernel_rfl) y
theorem coverC_6 (c : Dev nD) (t : Fin cfg0.N) (h0 : ¬condFirst (grid0.coords t)) (h1 : condLast (grid0.coords t)) (xs0 xs1 : Vec F S1024x1 .f32) (y : S1024x1.Idx) :
    ∃ pc ∈ (rC m c t h0 h1 xs0 xs1).1, y ∈ pc.1.set :=
  View.cover_of_tiledL (rC m c t h0 h1 xs0 xs1).1 S1024x1.size (by sl_kernel_rfl) y
theorem coverC_7 (c : Dev nD) (t : Fin cfg0.N) (h0 : ¬condFirst (grid0.coords t)) (h1 : condLast (grid0.coords t)) (xs0 xs1 : Vec F S1024x1 .f32) (y : S1024x1.Idx) :
    ∃ pc ∈ (rC m c t h0 h1 xs0 xs1).2.1, y ∈ pc.1.set :=
  View.cover_of_tiledL (rC m c t h0 h1 xs0 xs1).2.1 S1024x1.size (by sl_kernel_rfl) y
theorem coverC_A (c : Dev nD) (t : Fin cfg0.N) (h0 : ¬condFirst (grid0.coords t)) (h1 : condLast (grid0.coords t)) (xs0 xs1 : Vec F S1024x1 .f32) (y : S1024x1.Idx) :
    ∃ pc ∈ (rC m c t h0 h1 xs0 xs1).2.2.1, y ∈ pc.1.set :=
  View.cover_of_tiledL (rC m c t h0 h1 xs0 xs1).2.2.1 S1024x1.size (by sl_kernel_rfl) y
theorem coverC_B (c : Dev nD) (t : Fin cfg0.N) (h0 : ¬condFirst (grid0.coords t)) (h1 : condLast (grid0.coords t)) (xs0 xs1 : Vec F S1024x1 .f32) (y : S1024x1.Idx) :
    ∃ pc ∈ (rC m c t h0 h1 xs0 xs1).2.2.2.1, y ∈ pc.1.set :=
  View.cover_of_tiledL (rC m c t h0 h1 xs0 xs1).2.2.2.1 S1024x1.size (by sl_kernel_rfl) y

/-! ## What each case leaves -/

/-- The first tile of a row of tiles: the outputs untouched (a placeholder nothing consults), the running columns
    at what the run stored. -/
def colsA (c : Dev nD) (t : Fin cfg0.N) (h0 : condFirst (grid0.coords t)) (h1 : ¬condLast (grid0.coords t)) : Cols F :=
  (VO6.read (Elt F) VO6.junk, VO7.read (Elt F) VO7.junk,
    VSA.read (Elt F) (VSA.writes (Elt F) VSA.junk (rA m c t h0 h1).1),
    VSB.read (Elt F) (VSB.writes (Elt F) VSB.junk (rA m c t h0 h1).2.1))
/-- An inner tile: the same, over the running columns the point before left. -/
def colsB (c : Dev nD) (t : Fin cfg0.N) (h0 : ¬condFirst (grid0.coords t)) (h1 : ¬condLast (grid0.coords t)) (xs0 xs1 : Vec F S1024x1 .f32) : Cols F :=
  (VO6.read (Elt F) VO6.junk, VO7.read (Elt F) VO7.junk,
    VSA.read (Elt F) (VSA.writes (Elt F) VSA.junk (rB m c t h0 h1 xs0 xs1).1),
    VSB.read (Elt F) (VSB.writes (Elt F) VSB.junk (rB m c t h0 h1 xs0 xs1).2.1))
/-- The last tile: the outputs and the running columns at what the run stored. -/
def colsC (c : Dev nD) (t : Fin cfg0.N) (h0 : ¬condFirst (grid0.coords t)) (h1 : condLast (grid0.coords t)) (xs0 xs1 : Vec F S1024x1 .f32) : Cols F :=
  (VO6.read (Elt F) (VO6.writes (Elt F) VO6.junk (rC m c t h0 h1 xs0 xs1).1),
    VO7.read (Elt F) (VO7.writes (Elt F) VO7.junk (rC m c t h0 h1 xs0 xs1).2.1),
    VSA.read (Elt F) (VSA.writes (Elt F) VSA.junk (rC m c t h0 h1 xs0 xs1).2.2.1),
    VSB.read (Elt F) (VSB.writes (Elt F) VSB.junk (rC m c t h0 h1 xs0 xs1).2.2.2.1))

/-! ## Point after point -/

/-- What the four columns hold after the body at position `n`: the case the position is in, run over the running
    columns the position before left. -/
def outsAt (c : Dev nD) : (n : ℕ) → n < cfg0.N → Cols F
  | 0, hn => colsA m c ⟨0, hn⟩ ((hcondFirst ⟨0, hn⟩).mpr (Nat.zero_mod _)) (fun h => (fun h => by (try dsimp only at h); omega) ((hcondLast ⟨0, hn⟩).mp h))
  | n + 1, hn =>
    if h0 : (n + 1) % 8 = 0 then
      if h1 : (n + 1) % 8 = 7 then
        False.elim (by omega)
      else
        colsA m c ⟨n + 1, hn⟩ ((hcondFirst ⟨n + 1, hn⟩).mpr h0) (fun h => h1 ((hcondLast ⟨n + 1, hn⟩).mp h))
    else
      if h1 : (n + 1) % 8 = 7 then
        colsC m c ⟨n + 1, hn⟩ (fun h => h0 ((hcondFirst ⟨n + 1, hn⟩).mp h)) ((hcondLast ⟨n + 1, hn⟩).mpr h1) (outsAt c n (Nat.lt_of_succ_lt hn)).2.2.1 (outsAt c n (Nat.lt_of_succ_lt hn)).2.2.2
      else
        colsB m c ⟨n + 1, hn⟩ (fun h => h0 ((hcondFirst ⟨n + 1, hn⟩).mp h)) (fun h => h1 ((hcondLast ⟨n + 1, hn⟩).mp h)) (outsAt c n (Nat.lt_of_succ_lt hn)).2.2.1 (outsAt c n (Nat.lt_of_succ_lt hn)).2.2.2

theorem outsAt_A (c : Dev nD) (t : Fin cfg0.N) (h0 : t.val % 8 = 0) (h1 : ¬t.val % 8 = 7) :
    outsAt m c t.val t.isLt = colsA m c t ((hcondFirst t).mpr h0) (fun h => h1 ((hcondLast t).mp h)) := by
  obtain ⟨n, hn⟩ := t
  cases n with
  | zero => exact rfl
  | succ n => exact (dif_pos h0).trans ((dif_neg h1).trans rfl)

theorem outsAt_B (c : Dev nD) (t : Fin cfg0.N) (h0 : ¬t.val % 8 = 0) (h1 : ¬t.val % 8 = 7) :
    outsAt m c t.val t.isLt = colsB m c t (fun h => h0 ((hcondFirst t).mp h)) (fun h => h1 ((hcondLast t).mp h))
      (outsAt m c (t.val - 1) (Nat.lt_of_le_of_lt (Nat.sub_le _ _) t.isLt)).2.2.1 (outsAt m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 8 = 0) (h1 : t.val % 8 = 7) :
    outsAt m c t.val t.isLt = colsC m c t (fun h => h0 ((hcondFirst t).mp h)) ((hcondLast t).mpr h1)
      (outsAt m c (t.val - 1) (Nat.lt_of_le_of_lt (Nat.sub_le _ _) t.isLt)).2.2.1 (outsAt m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The body's invariant before position `n`: before the first point the two running columns at some contents,
    afterwards at what the position before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scA fullShare ((outsAt m c n hn).2.2.1) ∗ owns (c : Thread nD τ) scB fullShare ((outsAt m c n hn).2.2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scA fullShare ((outsAt m c n hn).2.2.1) ∗ owns (c : Thread nD τ) scB fullShare ((outsAt m c n hn).2.2.2)) := rfl

theorem PhiS_pos (c : Dev nD) (n : ℕ) (h : n ≤ cfg0.N) (hz : n ≠ 0) :
    PhiS m c n h = iprop(owns (c : Thread nD τ) scA fullShare ((outsAt m c (n - 1) (by omega)).2.2.1) ∗ owns (c : Thread nD τ) scB fullShare ((outsAt m c (n - 1) (by omega)).2.2.2)) := by
  cases n with
  | zero => exact absurd rfl hz
  | succ n => rfl

/-! ## The pipeline's proof data -/

/-- The arrays as the region finds them; each input's buffer at its block after the body, each output's at
    `outsAt`; the invariant above; the embeddings' array, which two windows read, held half and half by them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]
theorem after7 (c : Dev nD) (t : Fin cfg0.N) : (dats m 0 c).after 7 t = (outsAt m c t.val t.isLt).2.1 := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' buffers hold their blocks; the point is in one of the three cases; that case's
    run applies, taking the running columns from what the point before left (from anything at the very first
    point) to this point's, and storing the outputs at j = 7 only. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [liveIn0 (grid0.coords t)], after0]
  rw [show (dats m 0 c).leavesExact 1 t = owns (c : Thread nD τ) (ms1 t) fullShare ((dats m 0 c).after 1 t) from by
    unfold Dat.leavesExact; rw [liveIn1 (grid0.coords t)], after1]
  rw [show (dats m 0 c).leavesExact 2 t = owns (c : Thread nD τ) (ms2 t) fullShare ((dats m 0 c).after 2 t) from by
    unfold Dat.leavesExact; rw [liveIn2 (grid0.coords t)], after2]
  rw [show (dats m 0 c).leavesExact 3 t = owns (c : Thread nD τ) (ms3 t) fullShare ((dats m 0 c).after 3 t) from by
    unfold Dat.leavesExact; rw [liveIn3 (grid0.coords t)], after3]
  rw [show (dats m 0 c).leavesExact 4 t = owns (c : Thread nD τ) (ms4 t) fullShare ((dats m 0 c).after 4 t) from by
    unfold Dat.leavesExact; rw [liveIn4 (grid0.coords t)], after4]
  rw [show (dats m 0 c).leavesExact 5 t = owns (c : Thread nD τ) (ms5 t) fullShare ((dats m 0 c).after 5 t) from by
    unfold Dat.leavesExact; rw [liveIn5 (grid0.coords t)], after5]
  by_cases h0 : t.val % 8 = 0
  · by_cases h1 : t.val % 8 = 7
    · exfalso; omega
    ·
      rw [Dat.leavesExact_idle (dats m 0 c) 6 t (idleOut6 t (fun h => h1 ((hcondLast t).mp h))) (noFlush6 t (fun h => h1 ((hcondLast t).mp h)))]
      rw [Dat.leavesExact_idle (dats m 0 c) 7 t (idleOut7 t (fun h => h1 ((hcondLast t).mp h))) (noFlush7 t (fun h => h1 ((hcondLast t).mp h)))]
      rw [outsAt_A m c t h0 h1]
      unfold colsA; (try dsimp only)
      by_cases hz : t.val = 0
      ·
        rw [PhiS_castSucc m c t, PhiS_zero m c _ _ hz, scoped_eq]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((rA m c t ((hcondFirst t).mpr h0) (fun h => h1 ((hcondLast t).mp h))).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1]
        · isplitl [HS0]
          · unfold owns; iexists _; isplitr
            swap; · iexact HS0
            ipureintro; exact View.read_writes_of_cover _ _ _ _ _ (coverA_A m c t _ _)
          unfold owns; iexists _; isplitr
          swap; · iexact HS1
          ipureintro; exact View.read_writes_of_cover _ _ _ _ _ (coverA_B m c t _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      ·
        rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((rA m c t ((hcondFirst t).mpr h0) (fun h => h1 ((hcondLast t).mp h))).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HS0 HS1]
        · isplitl [HS0]
          · unfold owns; iexists _; isplitr
            swap; · iexact HS0
            ipureintro; exact View.read_writes_of_cover _ _ _ _ _ (coverA_A m c t _ _)
          unfold owns; iexists _; isplitr
          swap; · iexact HS1
          ipureintro; exact View.read_writes_of_cover _ _ _ _ _ (coverA_B m c t _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
  · by_cases h1 : t.val % 8 = 7
    ·
      rw [show (dats m 0 c).leavesExact 6 t = owns (c : Thread nD τ) (ms6 t) fullShare ((dats m 0 c).after 6 t) from by
        unfold Dat.leavesExact; rw [liveOut6 t ((hcondLast t).mpr h1)], after6]
      rw [show (dats m 0 c).leavesExact 7 t = owns (c : Thread nD τ) (ms7 t) fullShare ((dats m 0 c).after 7 t) from by
        unfold Dat.leavesExact; rw [liveOut7 t ((hcondLast t).mpr h1)], after7]
      rw [outsAt_C m c t h0 h1]
      unfold colsC; (try dsimp only)
      by_cases hz : t.val = 0
      · exfalso; omega
      ·
        rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((rC m c t (fun h => h0 ((hcondFirst t).mp h)) ((hcondLast t).mpr h1) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%e6, H6⟩, ⟨%e7, H7⟩, ⟨%es0, HS0⟩, ⟨%es1, HS1⟩⟩
        isplitl [HS0 HS1]
        · isplitl [HS0]
          · unfold owns; iexists _; isplitr
            swap; · iexact HS0
            ipureintro; exact View.read_writes_of_cover _ _ _ _ _ (coverC_A m c t _ _ _ _)
          unfold owns; iexists _; isplitr
          swap; · iexact HS1
          ipureintro; exact View.read_writes_of_cover _ _ _ _ _ (coverC_B m c t _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverC_6 m c t _ _ _ _)
        · unfold owns; iexists _; isplitr
          swap; · iexact H7
          ipureintro; exact View.read_writes_of_cover _ _ _ _ _ (coverC_7 m c t _ _ _ _)
    ·
      rw [Dat.leavesExact_idle (dats m 0 c) 6 t (idleOut6 t (fun h => h1 ((hcondLast t).mp h))) (noFlush6 t (fun h => h1 ((hcondLast t).mp h)))]
      rw [Dat.leavesExact_idle (dats m 0 c) 7 t (idleOut7 t (fun h => h1 ((hcondLast t).mp h))) (noFlush7 t (fun h => h1 ((hcondLast t).mp h)))]
      rw [outsAt_B m c t h0 h1]
      unfold colsB; (try dsimp only)
      by_cases hz : t.val = 0
      · exfalso; omega
      ·
        rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((rB m c t (fun h => h0 ((hcondFirst t).mp h)) (fun h => h1 ((hcondLast t).mp h)) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1]
        · isplitl [HS0]
          · unfold owns; iexists _; isplitr
            swap; · iexact HS0
            ipureintro; exact View.read_writes_of_cover _ _ _ _ _ (coverB_A m c t _ _ _ _)
          unfold owns; iexists _; isplitr
          swap; · iexact HS1
          ipureintro; exact View.read_writes_of_cover _ _ _ _ _ (coverB_B m c t _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- The invariant before the first point is what the launch hands the body. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the two running columns back, their contents forgotten. -/
theorem hout (c : Dev nD) : (dats m 0 c).Φ (Fin.last cfg0.N)
    ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro ⟨HS0, HS1⟩
  isplitl [HS0]
  · iexists _; iexact HS0
  iexists _; iexact HS1

end Cert.KernelIdeal.Tri

end
-- ==== Proof.KernelIdeal.Region.lean ====
/-
  The mining kernel's region launched inside @main. Two input windows read the same array (the embeddings cast
  to bf16, once by row tile and once by column tile): its buffer, whole when the region is entered, is divided
  between the two windows half and half, and rejoined when the region is left; every other array belongs to
  one window. After the region the host lines that finish the loss run on all unscoped buffers again.
-/
import proofs.«180511_j70368744178174_1_alg».proof.Proof.KernelIdeal.Frame

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The arrays, one by one -/

/-- The pipeline's arrays at contents `Fv`, window by window: the shared array at the two halves. -/
theorem arrays_chain (c : Dev nD) (Fv : (w : Fin cfg0.W) → Buf (Elt F) ((cfg0.win w).arr.view.loc (c.tc : Thread nD τ))) :
    ((dats m 0 c).arrays Fv : sProp 𝕄)
      = iprop((((c : Thread nD τ).loc main_v0) ↦{fullShare.left} Fv 0) ∗ (((c : Thread nD τ).loc main_v0) ↦{fullShare.right} Fv 1)
          ∗ (((c : Thread nD τ).loc main_v3) ↦{fullShare} Fv 2) ∗ (((c : Thread nD τ).loc main_v4) ↦{fullShare} Fv 3)
          ∗ (((c : Thread nD τ).loc main_v5) ↦{fullShare} Fv 4) ∗ (((c : Thread nD τ).loc main_v6) ↦{fullShare} Fv 5)
          ∗ (((c : Thread nD τ).loc main_v7_0) ↦{fullShare} Fv 6) ∗ (((c : Thread nD τ).loc main_v7_1) ↦{fullShare} Fv 7)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-- The distinct buffers behind the arrays, one by one. -/
theorem arrBufs_chain (c : Dev nD) (Vv : (b : Ref sig .tc) → Buf (Elt F) ((c.tc : Thread nD τ).loc b)) :
    (arrBufs spec0 c Vv : sProp 𝕄)
      = iprop((((c : Thread nD τ).loc main_v0) ↦{fullShare} Vv main_v0) ∗ (((c : Thread nD τ).loc main_v3) ↦{fullShare} Vv main_v3)
          ∗ (((c : Thread nD τ).loc main_v4) ↦{fullShare} Vv main_v4) ∗ (((c : Thread nD τ).loc main_v5) ↦{fullShare} Vv main_v5)
          ∗ (((c : Thread nD τ).loc main_v6) ↦{fullShare} Vv main_v6) ∗ (((c : Thread nD τ).loc main_v7_0) ↦{fullShare} Vv main_v7_0)
          ∗ (((c : Thread nD τ).loc main_v7_1) ↦{fullShare} Vv main_v7_1)) := by
  unfold arrBufs
  rw [bigSep_eq_bigSepL_of_eq [main_v0, main_v3, main_v4, main_v5, main_v6, main_v7_0, main_v7_1] (by decide) (by decide)]
  rfl

/-- The buffers behind the arrays, whole, are the pipeline's arrays at the same contents: the shared array's
    buffer is the two windows' halves of it. -/
theorem arrays_of_bufs (c : Dev nD) (Vv : (b : Ref sig .tc) → Buf (Elt F) ((c.tc : Thread nD τ).loc b))
    (Fv : (w : Fin cfg0.W) → Buf (Elt F) ((cfg0.win w).arr.view.loc (c.tc : Thread nD τ))) (hF : ∀ w, Fv w = Vv (arrRef spec0 w)) :
    (arrBufs spec0 c Vv : sProp 𝕄) ⊣⊢ (dats m 0 c).arrays Fv := by
  rw [arrays_chain, arrBufs_chain, hF 0, hF 1, hF 2, hF 3, hF 4, hF 5, hF 6, hF 7]
  constructor
  · iintro ⟨H0, H3, H4, H5, H6, H70, H71⟩
    icases (pointsTo_share (PosShare.mem_left_op_right fullShare)).1 $$ H0 with ⟨Ha, Hb⟩
    isplitl [Ha]; · iexact Ha
    isplitl [Hb]; · iexact Hb
    isplitl [H3]; · iexact H3
    isplitl [H4]; · iexact H4
    isplitl [H5]; · iexact H5
    isplitl [H6]; · iexact H6
    isplitl [H70]; · iexact H70
    iexact H71
  · iintro ⟨Ha, Hb, H3, H4, H5, H6, H70, H71⟩
    isplitl [Ha Hb]
    · iapply (pointsTo_share (PosShare.mem_left_op_right fullShare)).2
      isplitl [Ha]; · iexact Ha
      iexact Hb
    isplitl [H3]; · iexact H3
    isplitl [H4]; · iexact H4
    isplitl [H5]; · iexact H5
    isplitl [H6]; · iexact H6
    isplitl [H70]; · iexact H70
    iexact H71

/-! ## The buffers when the region is left, and at the end of @main -/

attribute [local instance] Classical.propDecidable

/-- The core's buffers when the region is left: the two outputs at what the write-backs leave, every other
    buffer as the region found it. -/
def Vx (c : Dev nD) : Valuation τ sig (Elt F) :=
  Function.update (Function.update (V0 m c) (Proc.devRef .tc main_v7_0) ((dats m 0 c).arrAt 6 cfg0.N))
    (Proc.devRef .tc main_v7_1) ((dats m 0 c).arrAt 7 cfg0.N)

/-- The core's buffers at the end of @main: the later host lines run from there. -/
def Vt (c : Dev nD) : Valuation τ sig (Elt F) := StableHlo.after (List.flatten [hostOps1]) (Vx m c)

theorem Vx_of_ne (c : Dev nD) (b : Ref sig .tc) (h6 : b ≠ main_v7_0) (h7 : b ≠ main_v7_1) :
    Vx m c (Proc.devRef .tc b) = V m c b := by
  unfold Vx
  rw [Function.update_of_ne (StableHlo.devRef_ne_of_ne h7), Function.update_of_ne (StableHlo.devRef_ne_of_ne h6)]

/-- Every array of the pipeline is, when the region is left, at what the library computes for it. -/
theorem Vx_arr (c : Dev nD) : ∀ w : Fin cfg0.W, Vx m c (Proc.devRef .tc (arrRef spec0 w)) = (dats m 0 c).arrAt w cfg0.N
  | ⟨0, _⟩ => (Vx_of_ne m c main_v0 (by decide) (by decide)).trans ((A_eq m c 0).symm.trans ((dats m 0 c).arrAt_in 0 rfl _).symm)
  | ⟨1, _⟩ => (Vx_of_ne m c main_v0 (by decide) (by decide)).trans ((A_eq m c 1).symm.trans ((dats m 0 c).arrAt_in 1 rfl _).symm)
  | ⟨2, _⟩ => (Vx_of_ne m c main_v3 (by decide) (by decide)).trans ((A_eq m c 2).symm.trans ((dats m 0 c).arrAt_in 2 rfl _).symm)
  | ⟨3, _⟩ => (Vx_of_ne m c main_v4 (by decide) (by decide)).trans ((A_eq m c 3).symm.trans ((dats m 0 c).arrAt_in 3 rfl _).symm)
  | ⟨4, _⟩ => (Vx_of_ne m c main_v5 (by decide) (by decide)).trans ((A_eq m c 4).symm.trans ((dats m 0 c).arrAt_in 4 rfl _).symm)
  | ⟨5, _⟩ => (Vx_of_ne m c main_v6 (by decide) (by decide)).trans ((A_eq m c 5).symm.trans ((dats m 0 c).arrAt_in 5 rfl _).symm)
  | ⟨6, _⟩ => by
    show Vx m c (Proc.devRef .tc main_v7_0) = _
    unfold Vx
    rw [Function.update_of_ne (StableHlo.devRef_ne_of_ne (by decide)), Function.update_self]
    rfl
  | ⟨7, _⟩ => by
    show Vx m c (Proc.devRef .tc main_v7_1) = _
    unfold Vx
    rw [Function.update_self]
    rfl

theorem single_sub (W : List (Ref sig .tc)) (y : Ref sig .tc) (hy : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, hy, rfl⟩))

/-- The later host lines write their own results only. -/
theorem tail_writes : (List.flatten [hostOps1] : List (HloOp τ sig (Elt F))).Forall fun op =>
    op.writes ⊆ (([main_v8, main_v9, main_v10, main_cst_0, main_v11, main_v12, main_cst_1, main_v13, main_v14, main_cst_2, main_v15, main_cst_3, main_v16] : List (Ref sig .tc)).map (Proc.devRef (τ := τ) .tc)).toFinset :=
  ⟨single_sub _ _ (by decide), single_sub _ _ (by decide), single_sub _ _ (by decide), single_sub _ _ (by decide),
    single_sub _ _ (by decide), single_sub _ _ (by decide), single_sub _ _ (by decide), single_sub _ _ (by decide),
    single_sub _ _ (by decide), single_sub _ _ (by decide), single_sub _ _ (by decide), single_sub _ _ (by decide),
    single_sub _ _ (by decide)⟩

/-- So every array of the pipeline ends @main as the region left it. -/
theorem Vt_arr (c : Dev nD) (w : Fin cfg0.W) : Vt m c (Proc.devRef .tc (arrRef spec0 w)) = (dats m 0 c).arrAt w cfg0.N :=
  (StableHlo.after_of_writes_sub (List.flatten [hostOps1]) (Vx m c) tail_writes
    ((by decide : ∀ w : Fin 8, arrRef spec0 w ∉ ([main_v8, main_v9, main_v10, main_cst_0, main_v11, main_v12, main_cst_1, main_v13, main_v14, main_cst_2, main_v15, main_cst_3, main_v16] : List (Ref sig .tc))) w)).trans (Vx_arr m c w)

theorem hsub1 : ∀ ops ∈ ([hostOps1] : List (List (HloOp τ sig (Elt F)))), ∀ op ∈ ops, op.bufs ⊆ ucRefs τ sig := by
  intro ops hops op hop
  simp only [List.mem_cons, List.mem_nil_iff, or_false] at hops
  subst hops
  exact sub_ucRefs op ((List.forall_iff_forall_mem.mp hostOps1_sub) op hop)

theorem hfresh1 : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem rest_ne6 : ∀ b ∈ ((Finset.univ.filter fun b : Ref sig .tc => ¬ b.isScoped) \ Finset.univ.image (arrRef spec0)), b ≠ main_v7_0 :=
  fun b hb e => (Finset.mem_sdiff.mp hb).2 (Finset.mem_image.mpr ⟨(6 : Fin 8), Finset.mem_univ _, e.symm⟩)
theorem rest_ne7 : ∀ b ∈ ((Finset.univ.filter fun b : Ref sig .tc => ¬ b.isScoped) \ Finset.univ.image (arrRef spec0)), b ≠ main_v7_1 :=
  fun b hb e => (Finset.mem_sdiff.mp hb).2 (Finset.mem_image.mpr ⟨(7 : Fin 8), Finset.mem_univ _, e.symm⟩)

/-! ## The host lines after the region -/

set_option backward.isDefEq.respectTransparency.types false in
/-- From the region's exit — the arrays as the write-backs left them, the other unscoped buffers as the region found
    them — the later host lines run on all unscoped buffers (the shared array's halves rejoined) and hand the arrays
    back unchanged, the other buffers at what the lines compute. -/
theorem htail (c : Dev nD) (Q' : PUnit → sProp 𝕄) :
    iprop((iprop((dats m 0 c).arrays ((dats m 0 c).arrAt · cfg0.N)
              ∗ unscopedRest (Ix := Unit) (Name := ℕ) (U := UR sig nD τ) (Lvl := ℕ) spec0 c (fun b => Vt m c (Proc.devRef .tc b))) -∗ Q' ⟨⟩)
        ∗ boundary (c.tc : Thread nD τ) ∗ (dats m 0 c).arrays ((dats m 0 c).arrAt · cfg0.N)
        ∗ unscopedRest (Ix := Unit) (Name := ℕ) (U := UR sig nD τ) (Lvl := ℕ) spec0 c (V m c))
      ⊢ wp frame (wpE (Pipeline.defs (fun q => Cfg.toPCfg (Val := Elt F) (cfgs q)) defs₀) (Variants.lift Variants.none) (c.tc : Thread nD τ) none) Set.univ
          (Pipeline.chain [StableHlo.seq hostOps1]) Q' := by
  have hrest : (unscopedRest (Ix := Unit) (Name := ℕ) (U := UR sig nD τ) (Lvl := ℕ) spec0 c (V m c) : sProp 𝕄)
      = unscopedRest spec0 c (fun b => Vx m c (Proc.devRef .tc b)) := by
    unfold unscopedRest
    exact bigSep_congr fun b hb => by beta_reduce; rw [Vx_of_ne m c b (rest_ne6 b hb) (rest_ne7 b hb)]
  have hjoin : iprop((dats m 0 c).arrays ((dats m 0 c).arrAt · cfg0.N)
        ∗ unscopedRest (Ix := Unit) (Name := ℕ) (U := UR sig nD τ) (Lvl := ℕ) spec0 c (V m c))
      ⊢ (StableHlo.held (c.tc : Thread nD τ) (ucRefs τ sig) (Vx m c) : sProp 𝕄) := by
    rw [← unscopedBufs_held, unscopedBufs_split₀ cfgs (0 : Fin 1) winFacts₀0.arr_unscoped c, hrest]
    exact sep_mono (arrays_of_bufs m c _ _ (fun w => (Vx_arr m c w).symm)).2 .rfl
  have hsplit' : (StableHlo.held (c.tc : Thread nD τ) (ucRefs τ sig) (StableHlo.after (List.flatten [hostOps1]) (Vx m c)) : sProp 𝕄)
      ⊢ iprop((dats m 0 c).arrays ((dats m 0 c).arrAt · cfg0.N)
          ∗ unscopedRest (Ix := Unit) (Name := ℕ) (U := UR sig nD τ) (Lvl := ℕ) spec0 c (fun b => Vt m c (Proc.devRef .tc b))) := by
    rw [← unscopedBufs_held, unscopedBufs_split₀ cfgs (0 : Fin 1) winFacts₀0.arr_unscoped c]
    exact sep_mono (arrays_of_bufs m c _ _ (fun w => (Vt_arr m c w).symm)).1 .rfl
  rw [← List.append_nil ([StableHlo.seq hostOps1] : List (Prog (TpuEff nD τ sig (Elt F) (Pipeline.Sig Λ₀ (Fin 1) fun p => (pcfgs (F := F) p).Adm) .tc) PUnit))]
  iintro ⟨Hk, Hb, Ha, Hr⟩
  iapply (wp_seqs_then (fun q => Cfg.toPCfg (Val := Elt F) (cfgs q)) defs₀ Variants.none c (ucRefs τ sig) [] [hostOps1] hsub1 hfresh1 (Vx m c)) $$ [Hb Ha Hr]
  · isplitl [Hb]; · iexact Hb
    iapply hjoin
    isplitl [Ha]; · iexact Ha
    iexact Hr
  iintro ⟨Hb, Hh⟩
  rw [chain_nil, wp_pure]
  imodintro
  iapply Hk
  iapply hsplit'; iexact Hh

/-! ## The run -/

set_option backward.isDefEq.respectTransparency.types false in
/-- Every weakly fair execution of @main terminates; at the end every array of the pipeline is at what the library
    computes from the proof data and every other unscoped buffer at what the host lines compute from there. -/
theorem run_main : θ_run defs (onTc (τ := τ) (main (F := F))) ⟨m, fun _ => 0, ρ⟩
    (fun r => ∀ c : Dev nD, (∀ w, r.2.mem ((spec0 w).arr.view.loc (c.tc : Thread nD τ)) = (dats m 0 c).arrAt w cfg0.N)
      ∧ ∀ b ∈ restRefs sig spec0, r.2.mem ((c.tc : Thread nD τ).loc b) = Vt m c (Proc.devRef .tc b)) := by
  exact θ_run_region_noSem_pf_tail (fun p => (cfgs p).toPCfg) (fun p => (cfgs p).toPCfg_adm) (dats m) () cellOf_inj (0 : Fin 1) winFacts₀0 (PreFacts.none _) emb₁ defs₀ Variants.none
    m ρ main (fun _ => Pipeline.chain [StableHlo.seq hostOps1]) (fun c => (body_obligation m c).loose) block_pos0 arr_whole0 stage_whole0 (fun _ _ => rfl)
    (initOf (cells cfgs cellOf_inj) (launchToks cfgs cellOf_inj)) .rfl (V m) (hmain m Variants.none)
    (fun c => (arrays_of_bufs m c _ _ (fun w => by rw [show (dats m 0 c).arrAt w 0 = (dats m 0 c).A w from rfl, A_eq])).1)
    (fun _ k => k.elim0)
    (fun _ => iprop(emp)) (fun _ => iprop(emp))
    (fun c => unscopedRest (Ix := Unit) (Name := ℕ) (U := UR sig nD τ) (Lvl := ℕ) spec0 c (V m c))
    (fun c => unscopedRest (Ix := Unit) (Name := ℕ) (U := UR sig nD τ) (Lvl := ℕ) spec0 c (fun b => Vt m c (Proc.devRef .tc b)))
    (fun c => by
      rw [unscopedRestP_none]
      iintro H
      isplitr; · iempintro
      iexact H)
    (fun c => by
      iintro ⟨-, -, H⟩
      iapply (hin m c); iexact H)
    (fun c => (hout m c).trans (by
      iintro H
      isplitr; · iempintro
      iexact H))
    (fun c Q' => htail m c Q')
    (fun c s => ∀ b ∈ restRefs sig spec0, s.mem ((c.tc : Thread nD τ).loc b) = Vt m c (Proc.devRef .tc b))
    (fun c s' => by
      iintro ⟨-, HU, HSI⟩
      unfold unscopedRest
      imodintro
      iapply (pointsTo_read_all (restRefs sig spec0) (fun b => (c.tc : Thread nD τ).loc b) (fun b => Vt m c (Proc.devRef .tc b)) s')
      isplitl [HU] <;> iassumption)
    (fun s h c => ⟨(h c).1, (h c).2.2⟩)

end Cert.KernelIdeal.Tri

end
-- ==== Proof.KernelIdeal.FrameClaim.lean ====
/-
  The frame of the mining program: @main terminates on every weakly fair execution and its two arguments end as
  they began, since neither stretch of host lines nor the region writes them.
-/
import proofs.«180511_j70368744178174_1_alg».proof.Proof.KernelIdeal.Region

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-- The host lines before the region write their own results only. -/
theorem head_writes : (List.flatten [hostOps0] : List (HloOp τ sig (Elt F))).Forall fun op =>
    op.writes ⊆ (([main_v0, main_v1, main_cst, main_v2, main_v3, main_v4, main_v5, main_v6] : List (Ref sig .tc)).map (Proc.devRef (τ := τ) .tc)).toFinset :=
  ⟨single_sub _ _ (by decide), single_sub _ _ (by decide), single_sub _ _ (by decide), single_sub _ _ (by decide),
    single_sub _ _ (by decide), single_sub _ _ (by decide), single_sub _ _ (by decide), single_sub _ _ (by decide)⟩

/-- A buffer that is no output of the region and that no host line writes ends @main as it began. -/
theorem Vt_keeps (c : Dev nD) (b : Ref sig .tc) (h6 : b ≠ main_v7_0) (h7 : b ≠ main_v7_1)
    (hT : b ∉ ([main_v8, main_v9, main_v10, main_cst_0, main_v11, main_v12, main_cst_1, main_v13, main_v14, main_cst_2, main_v15, main_cst_3, main_v16] : List (Ref sig .tc))) (hH : b ∉ ([main_v0, main_v1, main_cst, main_v2, main_v3, main_v4, main_v5, main_v6] : List (Ref sig .tc))) :
    Vt m c (Proc.devRef .tc b) = m ((c.tc : Thread nD τ).loc b) :=
  (StableHlo.after_of_writes_sub (List.flatten [hostOps1]) (Vx m c) tail_writes hT).trans
    ((Vx_of_ne m c b h6 h7).trans
      (StableHlo.after_of_writes_sub (List.flatten [hostOps0]) (fun b => m (c, b)) head_writes hH))

/-- The frame, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (by decide)).trans (Vt_keeps m c main_arg0 (by decide) (by decide) (by decide) (by decide)),
     ((h c).2 main_arg1 (by decide)).trans (Vt_keeps m c main_arg1 (by decide) (by decide) (by decide) (by decide))⟩)
    (run_main m ρ)

end Cert.KernelIdeal.Tri

end
-- ==== Proof.KernelIdeal.Vals.lean ====
/-
  What the three runs leave, as values: at every point the two running columns end at the fold of the tile into
  what they held — the row maxima of the tile's masked positive distances joined to the running maximum, the row
  minima of its masked negative distances joined to the running minimum — and at j = 7 the two output blocks end at
  the same two columns. The first tile of a row of tiles starts from the column of -inf and the column of +inf.
-/
import proofs.«180511_j70368744178174_1_alg».proof.Proof.KernelIdeal.Frame
import Idealize.ShloMosaic.Lib.Pipeline.Value

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- The tile's distances, its label mask and its diagonal mask at a point, from the point's input blocks. -/
abbrev tD (c : Dev nD) (t : Fin cfg0.N) : FVec F S1024x1024 .f32 := k0_pay5 (iblk m c 0 t) (iblk m c 1 t) (iblk m c 2 t) (iblk m c 3 t)
abbrev tM (c : Dev nD) (t : Fin cfg0.N) : IVec S1024x1024 1 := k0_pay6 (F := F) (iblk m c 4 t) (iblk m c 5 t)
abbrev tE (t : Fin cfg0.N) : IVec S1024x1024 1 := k0_pay7 (grid0.coords t)

theorem colsA_A (c : Dev nD) (t : Fin cfg0.N) (h0 : condFirst (grid0.coords t)) (h1 : ¬condLast (grid0.coords t)) :
    (colsA m c t h0 h1).2.2.1 = k0_pay1 (tD m c t) (tM m c t) (tE t) (k0_pay3 (F := F)) := by
  unfold colsA
  dsimp only
  rw [View.read_writes_eq_canon _ _ _ (coverA_A m c t h0 h1)]
  unfold rA runA
  dsimp only
  sl_unfold_words
  rw [View.canon_cons_unit_zero (S := S1024x1) hz, View.readCov_unit_zero (S := S1024x1) _ hz]
  simp only [View.readAt_eq_ld, Memref.IsWhole.read_unread, View.ld_unit_zero (S := S1024x1) hz, View.ld_unit_zero (S := S1024x128) hz, View.ld_unit_zero (S := S1x1024) hz]

theorem colsA_B (c : Dev nD) (t : Fin cfg0.N) (h0 : condFirst (grid0.coords t)) (h1 : ¬condLast (grid0.coords t)) :
    (colsA m c t h0 h1).2.2.2 = k0_pay2 (tD m c t) (tM m c t) (tE t) (k0_pay4 (F := F)) := by
  unfold colsA
  dsimp only
  rw [View.read_writes_eq_canon _ _ _ (coverA_B m c t h0 h1)]
  unfold rA runA
  dsimp only
  sl_unfold_words
  rw [View.canon_cons_unit_zero (S := S1024x1) hz, View.readCov_unit_zero (S := S1024x1) _ hz]
  simp only [View.readAt_eq_ld, Memref.IsWhole.read_unread, View.ld_unit_zero (S := S1024x1) hz, View.ld_unit_zero (S := S1024x128) hz, View.ld_unit_zero (S := S1x1024) hz]

theorem colsB_A (c : Dev nD) (t : Fin cfg0.N) (h0 : ¬condFirst (grid0.coords t)) (h1 : ¬condLast (grid0.coords t)) (xs0 xs1 : Vec F S1024x1 .f32) :
    (colsB m c t h0 h1 xs0 xs1).2.2.1 = k0_pay1 (tD m c t) (tM m c t) (tE t) xs0 := by
  unfold colsB
  dsimp only
  rw [View.read_writes_eq_canon _ _ _ (coverB_A m c t h0 h1 xs0 xs1)]
  unfold rB runB
  dsimp only
  sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  exact congrArg (k0_pay1 _ _ _) ((Memref.isWhole_whole cc0_scratch0).read_unread xs0)

theorem colsB_B (c : Dev nD) (t : Fin cfg0.N) (h0 : ¬condFirst (grid0.coords t)) (h1 : ¬condLast (grid0.coords t)) (xs0 xs1 : Vec F S1024x1 .f32) :
    (colsB m c t h0 h1 xs0 xs1).2.2.2 = k0_pay2 (tD m c t) (tM m c t) (tE t) xs1 := by
  unfold colsB
  dsimp only
  rw [View.read_writes_eq_canon _ _ _ (coverB_B m c t h0 h1 xs0 xs1)]
  unfold rB runB
  dsimp only
  sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  exact congrArg (k0_pay2 _ _ _) ((Memref.isWhole_whole cc0_scratch1).read_unread xs1)

theorem colsC_6 (c : Dev nD) (t : Fin cfg0.N) (h0 : ¬condFirst (grid0.coords t)) (h1 : condLast (grid0.coords t)) (xs0 xs1 : Vec F S1024x1 .f32) :
    (colsC m c t h0 h1 xs0 xs1).1 = k0_pay1 (tD m c t) (tM m c t) (tE t) xs0 := by
  unfold colsC
  dsimp only
  rw [View.read_writes_eq_canon _ _ _ (coverC_6 m c t h0 h1 xs0 xs1)]
  unfold rC runC
  dsimp only
  sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rw [View.readCov_unit_zero (S := S1024x1) _ hz]
  exact congrArg (k0_pay1 _ _ _) ((Memref.isWhole_whole cc0_scratch0).read_unread xs0)

theorem colsC_7 (c : Dev nD) (t : Fin cfg0.N) (h0 : ¬condFirst (grid0.coords t)) (h1 : condLast (grid0.coords t)) (xs0 xs1 : Vec F S1024x1 .f32) :
    (colsC m c t h0 h1 xs0 xs1).2.1 = k0_pay2 (tD m c t) (tM m c t) (tE t) xs1 := by
  unfold colsC
  dsimp only
  rw [View.read_writes_eq_canon _ _ _ (coverC_7 m c t h0 h1 xs0 xs1)]
  unfold rC runC
  dsimp only
  sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rw [View.readCov_unit_zero (S := S1024x1) _ hz]
  exact congrArg (k0_pay2 _ _ _) ((Memref.isWhole_whole cc0_scratch1).read_unread xs1)

theorem colsC_A (c : Dev nD) (t : Fin cfg0.N) (h0 : ¬condFirst (grid0.coords t)) (h1 : condLast (grid0.coords t)) (xs0 xs1 : Vec F S1024x1 .f32) :
    (colsC m c t h0 h1 xs0 xs1).2.2.1 = k0_pay1 (tD m c t) (tM m c t) (tE t) xs0 := by
  unfold colsC
  dsimp only
  rw [View.read_writes_eq_canon _ _ _ (coverC_A m c t h0 h1 xs0 xs1)]
  unfold rC runC
  dsimp only
  sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  exact congrArg (k0_pay1 _ _ _) ((Memref.isWhole_whole cc0_scratch0).read_unread xs0)

theorem colsC_B (c : Dev nD) (t : Fin cfg0.N) (h0 : ¬condFirst (grid0.coords t)) (h1 : condLast (grid0.coords t)) (xs0 xs1 : Vec F S1024x1 .f32) :
    (colsC m c t h0 h1 xs0 xs1).2.2.2 = k0_pay2 (tD m c t) (tM m c t) (tE t) xs1 := by
  unfold colsC
  dsimp only
  rw [View.read_writes_eq_canon _ _ _ (coverC_B m c t h0 h1 xs0 xs1)]
  unfold rC runC
  dsimp only
  sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  exact congrArg (k0_pay2 _ _ _) ((Memref.isWhole_whole cc0_scratch1).read_unread xs1)

end Cert.KernelIdeal.Tri

end
-- ==== Proof.LibColRow.lean ====
/-
  Columns read at an index: a vector of length a viewed as an [a, 1] column, an [a, 1] column viewed as a vector of
  length a, and an [a, 1] column repeated across b columns; in any element type.
-/
import Idealize.ShloMosaic.Lib.ValueIdx
import Idealize.ShloMosaic.Lib.ValueLayout
import Idealize.ShloMosaic.Lib.Pipeline.Value

namespace Cert.Lib.ColRow

open Idealize.ShloMosaic Idealize.ShloMosaic.ValueIdx

variable {α : Type}

/-- A vector of length `a` viewed as an `[a, 1]` column reads, at `(r, 0)`, the vector at `r`. -/
theorem col_of_vec {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_two, Shape.rowMajor_val_one]
    show r.val = r.val * 1 + z.val
    rw [hz, Nat.mul_one, Nat.add_zero])

/-- An `[a, 1]` column viewed as a vector of length `a` reads, at `r`, the column at `(r, 0)`. -/
theorem vec_of_col {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- An `[a, 1]` column repeated across `b` columns reads, at `(r, k)`, the column at `(r, 0)`. -/
theorem bcast_col {a b : ℕ} (x : (⟨2, ![a, 1]⟩ : Shape).Idx → α) (h : (⟨2, ![a, 1]⟩ : Shape).Broadcasts ⟨2, ![a, b]⟩)
    (r : Fin a) (k : Fin b) : broadcastTo ⟨2, ![a, b]⟩ x h (ix2 r k) = x (ix2 r (0 : Fin 1)) := by
  refine broadcastTo_apply x h (ix2 r k) (ix2 r (0 : Fin 1)) fun ax => ?_
  match ax with
  | ⟨0, _⟩ =>
    show r.val = if a = 1 then 0 else r.val
    split
    · have := r.isLt; omega
    · rfl
  | ⟨1, _⟩ => rfl

end Cert.Lib.ColRow
-- ==== Proof.Spec.lean ====
/-
  The mathematics both programs compute, on the extended reals. From the embeddings a (8192 rows of 128), their
  squared row norms q and the labels l: the distance of rows R and C is sqrt(max(q R + q C - 2 <a R, a C>, 0)); the
  masked positive distance is -inf on the diagonal, the distance where the labels agree and +inf elsewhere; the masked
  negative distance is -inf on the diagonal and where the labels agree, the distance elsewhere; the hardest positive of
  row R is the supremum of its masked positive distances, the hardest negative the infimum of its masked negative ones.
-/
import Idealize.ShloMosaic.PureOps.Ideal
import Idealize.ShloMosaic.PureOps.Ideal.Laws
import Idealize.ShloMosaic.Lib.ValueIdx

noncomputable section

namespace Cert.Tri.Spec

open Idealize.ShloMosaic Idealize.ShloMosaic.ValueIdx

/-- A masked positive distance: minus infinity on the diagonal, the distance where the labels agree, plus infinity
    elsewhere. -/
def posE (e mk : BitVec 1) (d : EReal) : EReal :=
  Scalar.select e (Ideal.ofBits .f32 0xFF800000#32) (Scalar.select mk d (Ideal.ofBits .f32 0x7F800000#32))
/-- A masked negative distance: minus infinity on the diagonal and where the labels agree, the distance elsewhere. -/
def negE (e mk : BitVec 1) (d : EReal) : EReal :=
  Scalar.select e (Ideal.ofBits .f32 0xFF800000#32) (Scalar.select mk (Ideal.ofBits .f32 0xFF800000#32) d)

abbrev SE : Shape := ⟨2, ![8192, 128]⟩
abbrev SL : Shape := ⟨1, ![8192]⟩

/-- The distance of rows `R` and `C`. -/
def dist (q : SL.Idx → EReal) (a : SE.Idx → EReal) (R C : Fin 8192) : EReal :=
  Ideal.sqrt (max ((q (ix1 R) + q (ix1 C)) - Ideal.ofBits .f32 0x40000000#32 * ∑ k : Fin 128, a (ix2 R k) * a (ix2 C k))
    (Ideal.ofBits .f32 0x00000000#32))
/-- The diagonal, as the programs test it: on 32-bit words. -/
def eye (R C : Fin 8192) : BitVec 1 := IntOp.cmpi .eq (BitVec.ofNat 32 R.val) (BitVec.ofNat 32 C.val)
/-- Equal labels. -/
def same (l : SL.Idx → BitVec 32) (R C : Fin 8192) : BitVec 1 := IntOp.cmpi .eq (l (ix1 R)) (l (ix1 C))

def P (q : SL.Idx → EReal) (a : SE.Idx → EReal) (l : SL.Idx → BitVec 32) (R C : Fin 8192) : EReal :=
  posE (eye R C) (same l R C) (dist q a R C)
def N (q : SL.Idx → EReal) (a : SE.Idx → EReal) (l : SL.Idx → BitVec 32) (R C : Fin 8192) : EReal :=
  negE (eye R C) (same l R C) (dist q a R C)

def hpos (q : SL.Idx → EReal) (a : SE.Idx → EReal) (l : SL.Idx → BitVec 32) (R : Fin 8192) : EReal :=
  (Finset.univ : Finset (Fin 8192)).sup (fun C => P q a l R C)
def hneg (q : SL.Idx → EReal) (a : SE.Idx → EReal) (l : SL.Idx → BitVec 32) (R : Fin 8192) : EReal :=
  (Finset.univ : Finset (Fin 8192)).inf (fun C => N q a l R C)

/-- Equality of words is symmetric. -/
theorem cmpi_eq_comm (x y : BitVec 32) : IntOp.cmpi .eq x y = IntOp.cmpi .eq y x := by
  unfold IntOp.cmpi
  simp only [BEq.comm (a := x) (b := y)]

/-- A square root guarded against a zero argument, as a reference written for differentiation spells it, is the
    square root: where the argument is not positive it is zero (it is a maximum with zero), and the root of zero is
    zero. -/
theorem guarded_sqrt (y : EReal) :
    Scalar.select (Ideal.cmp .ogt (max y (Ideal.ofBits .f32 0x00000000#32)) (Ideal.ofBits .f32 0x00000000#32))
        (Ideal.sqrt (Scalar.select (Ideal.cmp .ogt (max y (Ideal.ofBits .f32 0x00000000#32)) (Ideal.ofBits .f32 0x00000000#32))
          (max y (Ideal.ofBits .f32 0x00000000#32)) (Ideal.ofBits .f32 0x3F800000#32)))
        (Ideal.ofBits .f32 0x00000000#32)
      = Ideal.sqrt (max y (Ideal.ofBits .f32 0x00000000#32)) := by
  rw [Ideal.ofBits_zero_f32]
  have hx0 : (0 : EReal) ≤ max y 0 := le_max_right _ _
  have hs0 : Ideal.sqrt (0 : EReal) = 0 := by
    have h : Ideal.sqrt ((0 : ℝ) : EReal) = ((Real.sqrt 0 : ℝ) : EReal) := by
      show (if (0 : ℝ) < 0 then (⊥ : EReal) else ((Real.sqrt 0 : ℝ) : EReal)) = _
      rw [if_neg (lt_irrefl _)]
    rw [← EReal.coe_zero, h, Real.sqrt_zero]
  by_cases h : (0 : EReal) < max y 0
  · have e : Ideal.cmp .ogt (max y 0) 0 = 1#1 := by simp [Ideal.cmp, h]
    rw [e, select_one, select_one]
  · have hx' : max y 0 = 0 := le_antisymm (not_lt.mp h) hx0
    have e : Ideal.cmp .ogt (max y 0) 0 = 0#1 := by simp [Ideal.cmp, h]
    rw [e, select_zero, hx', hs0]

end Cert.Tri.Spec

end
-- ==== Proof.LibRowExtrema.lean ====
/-
  Row extrema of an [a, b] array of extended reals read at a row, as a supremum or an infimum over the row: the
  vector unit's reduction along the last axis started from -inf (maximum) or +inf (minimum), and the host's reduction
  along the last axis from a scalar initial value that is -inf or +inf. A fold of max from the bottom element is the
  supremum, a fold of min from the top element the infimum; so a row extremum taken tile by tile and one taken on
  the whole row can be compared by the order alone.
-/
import Idealize.ShloMosaic.PureOps.Ideal.Laws
import Idealize.ShloMosaic.Lib.ValueIdx

noncomputable section

namespace Cert.Lib.RowExtrema

open Idealize.ShloMosaic Idealize.ShloMosaic.ValueIdx

theorem negInf_f32 : Ideal.ofBits .f32 0xFF800000#32 = (⊥ : EReal) := by simp [Ideal.ofBits, Ideal.ieee]
theorem posInf_f32 : Ideal.ofBits .f32 0x7F800000#32 = (⊤ : EReal) := by simp [Ideal.ofBits, Ideal.ieee]

/-- A fold of `max` from the bottom element is the supremum. -/
theorem fold_max_bot {ι : Type} (s : Finset ι) (f : ι → EReal) : s.fold max ⊥ f = s.sup f := rfl
/-- A fold of `min` from the top element is the infimum. -/
theorem fold_min_top {ι : Type} (s : Finset ι) (f : ι → EReal) : s.fold min ⊤ f = s.inf f := rfl

/-- The vector unit's maximum over the last axis of an `[a, b]` array from -inf, at row `r`. -/
theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = (Finset.univ : Finset (Fin b)).sup (fun k => src (ix2 r k)) := by
  have e : (Finset.univ : Finset (Fin b)).fold max (Ideal.ofBits .f32 0xFF800000#32) (fun k => src (ix2 r k))
      = (Finset.univ : Finset (Fin b)).sup (fun k => src (ix2 r k)) := by rw [negInf_f32]; rfl
  refine (Ideal.multiReduction_maximumf_single src _ h hφ hacc (ix1 r)).trans (Eq.trans ?_ e)
  exact congrArg (fun f : Fin b → EReal => (Finset.univ : Finset (Fin b)).fold max (Ideal.ofBits .f32 0xFF800000#32) f)
    (funext fun k => congrArg src (funext fun ax => Fin.ext (by
      match ax with
      | ⟨0, _⟩ => rfl
      | ⟨1, _⟩ => rfl)))

/-- The vector unit's minimum over the last axis of an `[a, b]` array from +inf, at row `r`. -/
theorem rowMin_apply {a b : ℕ} (src : FVec Ideal ⟨2, ![a, b]⟩ .f32)
    (h : (⟨2, ![a, b]⟩ : Shape).Reduces [1] ⟨1, ![a]⟩) (hφ : FKind.Formats .f32)
    (hacc : (0x7F800000#32 : BitVec 32) = FKind.minimumf.neutral .f32 hφ) (r : Fin a) :
    multiReduction .minimumf [1] ⟨1, ![a]⟩ src 0x7F800000#32 h hφ hacc (ix1 r)
      = (Finset.univ : Finset (Fin b)).inf (fun k => src (ix2 r k)) := by
  have e : (Finset.univ : Finset (Fin b)).fold min (Ideal.ofBits .f32 0x7F800000#32) (fun k => src (ix2 r k))
      = (Finset.univ : Finset (Fin b)).inf (fun k => src (ix2 r k)) := by rw [posInf_f32]; rfl
  rw [multiReduction_minimumf_eq_fold]
  refine (h.fold_filter_drop_single _ _ src (ix1 r)).trans (Eq.trans ?_ e)
  exact congrArg (fun f : Fin b → EReal => (Finset.univ : Finset (Fin b)).fold min (Ideal.ofBits .f32 0x7F800000#32) f)
    (funext fun k => congrArg src (funext fun ax => Fin.ext (by
      match ax with
      | ⟨0, _⟩ => rfl
      | ⟨1, _⟩ => rfl)))

/-- The host's maximum over the last axis of an `[a, b]` array from a scalar initial value that is -inf, at row `r`. -/
theorem hostRowMax_apply {a b : ℕ} (x : FVec Ideal ⟨2, ![a, b]⟩ .f32) (init : (⟨0, ![]⟩ : Shape).Idx → Ideal .f32)
    (hinit : ∀ i, init i = (⊥ : EReal))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r) = (Finset.univ : Finset (Fin b)).sup (fun k => x (ix2 r k)) := by
  have e : (Finset.univ : Finset (Fin b)).fold max (⊥ : EReal) (fun k => x (ix2 r k))
      = (Finset.univ : Finset (Fin b)).sup (fun k => x (ix2 r k)) := rfl
  refine (Host.reduce_eq_fold_single FloatOps.maximumf x init h' h hu (ix1 r)).trans (Eq.trans ?_ e)
  rw [hinit]
  exact congrArg (fun f : Fin b → EReal => (Finset.univ : Finset (Fin b)).fold max (⊥ : EReal) f)
    (funext fun k => congrArg x (funext fun ax => Fin.ext (by
      match ax with
      | ⟨0, _⟩ => rfl
      | ⟨1, _⟩ => rfl)))

/-- The host's minimum over the last axis of an `[a, b]` array from a scalar initial value that is +inf, at row `r`. -/
theorem hostRowMin_apply {a b : ℕ} (x : FVec Ideal ⟨2, ![a, b]⟩ .f32) (init : (⟨0, ![]⟩ : Shape).Idx → Ideal .f32)
    (hinit : ∀ i, init i = (⊤ : EReal))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.minimumf x init h' hu (ix1 r) = (Finset.univ : Finset (Fin b)).inf (fun k => x (ix2 r k)) := by
  have e : (Finset.univ : Finset (Fin b)).fold min (⊤ : EReal) (fun k => x (ix2 r k))
      = (Finset.univ : Finset (Fin b)).inf (fun k => x (ix2 r k)) := rfl
  refine (Host.reduce_eq_fold_single FloatOps.minimumf x init h' h hu (ix1 r)).trans (Eq.trans ?_ e)
  rw [hinit]
  exact congrArg (fun f : Fin b → EReal => (Finset.univ : Finset (Fin b)).fold min (⊤ : EReal) f)
    (funext fun k => congrArg x (funext fun ax => Fin.ext (by
      match ax with
      | ⟨0, _⟩ => rfl
      | ⟨1, _⟩ => rfl)))

end Cert.Lib.RowExtrema

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibPlainProduct.lean ====
/-
  The plain matrix product — an [M, K] matrix times a [K, N] matrix, the left operand's axis 1 contracted against the
  right operand's axis 0, no batch axis — read at an entry (p, q) as the sum over k of x(p, k) · w(k, q), on the extended
  reals: for the host's product and for the matrix unit's product into a zero accumulator. The operands' indices at
  contraction position k are computed once here, for every M, K, N, so a caller only names its entry.
-/
import proofs.«180511_j70368744178174_1_alg».proof.Proof.LibDotSum

namespace Idealize.ShloMosaic.PlainProduct

open Idealize.ShloMosaic Idealize.ShloMosaic.ValueIdx

variable (M K N : Nat)

theorem contr_rank : (DotDims.plain M K N).contr.rank = 1 := rfl

theorem contr_size : (DotDims.plain M K N).contr.size ⟨0, by rw [contr_rank]; omega⟩ = K := rfl

/-- The left operand is read at row p, column k. -/
theorem lhsIdx_eq (p : Fin M) (q : Fin N) (k : Fin K) :
    (DotDims.plain M K N).lhsIdx (ix2 p q)
      ((contrEquiv1 (DotDims.plain M K N) K (contr_rank M K N) (contr_size M K N)).symm k) = ix2 p k := by
  funext a
  apply Fin.ext
  match a with
  | ⟨0, _⟩ =>
    unfold DotDims.lhsIdx
    split
    · next hb => exact absurd hb List.not_mem_nil
    · split
      · rfl
      · next hn => exact absurd (List.mem_singleton.mpr rfl) hn
  | ⟨1, _⟩ =>
    exact ((DotDims.plain M K N).lhsIdx_val_of_single rfl (ix2 p q) _).trans
      (contrEquiv1_symm_val (DotDims.plain M K N) K (contr_rank M K N) (contr_size M K N) k)

/-- The right operand is read at row k, column q. -/
theorem rhsIdx_eq (p : Fin M) (q : Fin N) (k : Fin K) :
    (DotDims.plain M K N).rhsIdx (ix2 p q)
      ((contrEquiv1 (DotDims.plain M K N) K (contr_rank M K N) (contr_size M K N)).symm k) = ix2 k q := by
  funext a
  apply Fin.ext
  match a with
  | ⟨0, _⟩ =>
    exact ((DotDims.plain M K N).rhsIdx_val_of_single rfl (ix2 p q) _).trans
      (contrEquiv1_symm_val (DotDims.plain M K N) K (contr_rank M K N) (contr_size M K N) k)
  | ⟨1, _⟩ =>
    unfold DotDims.rhsIdx
    split
    · next hb => exact absurd hb List.not_mem_nil
    · split
      · rfl
      · next hn => exact absurd (List.mem_singleton.mpr rfl) hn

/-- The host's plain product at (p, q). -/
theorem dotGeneral_at {φ₁ φ₂ : FTy} (x : FVec Ideal ⟨2, ![M, K]⟩ φ₁) (w : FVec Ideal ⟨2, ![K, N]⟩ φ₂) (p : Fin M) (q : Fin N) :
    Host.dotGeneral (DotDims.plain M K N) none x w (ix2 p q) = ∑ k : Fin K, x (ix2 p k) * w (ix2 k q) :=
  DotSum.dotGeneral_eq_sum (DotDims.plain M K N) K (contr_rank M K N) (contr_size M K N) x w (ix2 p q)
    (fun k => ix2 p k) (fun k => ix2 k q) (lhsIdx_eq M K N p q) (rhsIdx_eq M K N p q)

/-- The matrix unit's plain product into zeros at (p, q). -/
theorem matmul_zero_at {φ₁ φ₂ : FTy} (x : FVec Ideal ⟨2, ![M, K]⟩ φ₁) (w : FVec Ideal ⟨2, ![K, N]⟩ φ₂) (p : Fin M) (q : Fin N) :
    matmul (DotDims.plain M K N) none x w (constant ⟨2, ![M, N]⟩ .f32 0x00000000#32) (ix2 p q)
      = ∑ k : Fin K, x (ix2 p k) * w (ix2 k q) :=
  DotSum.matmul_zero_eq_sum (DotDims.plain M K N) K (contr_rank M K N) (contr_size M K N) x w (ix2 p q)
    (fun k => ix2 p k) (fun k => ix2 k q) (lhsIdx_eq M K N p q) (rhsIdx_eq M K N p q)

end Idealize.ShloMosaic.PlainProduct
-- ==== Proof.KernelIdeal.Tile.lean ====
/-
  A tile of the mining kernel entry by entry, on the extended reals: the distance at (r, k) from the row tile's and
  the column tile's embeddings and squared norms; the label mask and the diagonal mask; and the fold of a tile into the
  two running columns, a row's supremum of the masked positive distances joined to the running maximum and a row's
  infimum of the masked negative distances met with the running minimum.
-/
import proofs.«180511_j70368744178174_1_alg».proof.Proof.Gen.KernelIdeal.Skeleton
import proofs.«180511_j70368744178174_1_alg».proof.Proof.LibColRow
import proofs.«180511_j70368744178174_1_alg».proof.Proof.Spec
import proofs.«180511_j70368744178174_1_alg».proof.Proof.LibRowExtrema
import proofs.«180511_j70368744178174_1_alg».proof.Proof.LibPlainProduct
import Idealize.ShloMosaic.Lib.ValueLayout
import Idealize.ShloMosaic.Lib.Pipeline.Value

noncomputable section

namespace Cert.KernelIdeal.Tri

open Idealize.ShloMosaic Idealize.ShloMosaic.ValueIdx Idealize.SL.Sem
open Cert.KernelIdeal Cert.KernelIdeal.Gen Cert.Lib.ColRow Cert.Lib.RowExtrema Cert.Tri.Spec

/-- The running maximum after a tile: joined with the supremum of the row's masked positive distances. -/
theorem pay1_apply (D : FVec Ideal S1024x1024 .f32) (M E : IVec S1024x1024 1) (acc : FVec Ideal S1024x1 .f32) (r : Fin 1024) :
    k0_pay1 (F := Ideal) D M E acc (ix2 r (0 : Fin 1))
      = max (acc (ix2 r (0 : Fin 1))) ((Finset.univ : Finset (Fin 1024)).sup fun k => posE (E (ix2 r k)) (M (ix2 r k)) (D (ix2 r k))) := by
  unfold k0_pay1
  try dsimp only
  rw [shapeCast_self, maximumf_apply, col_of_vec]
  exact congrArg (max (acc (ix2 r (0 : Fin 1)))) (rowMax_apply _ reduces_S1024x1024_S1024 _ _ r)

/-- The running minimum after a tile: met with the infimum of the row's masked negative distances. -/
theorem pay2_apply (D : FVec Ideal S1024x1024 .f32) (M E : IVec S1024x1024 1) (acc : FVec Ideal S1024x1 .f32) (r : Fin 1024) :
    k0_pay2 (F := Ideal) D M E acc (ix2 r (0 : Fin 1))
      = min (acc (ix2 r (0 : Fin 1))) ((Finset.univ : Finset (Fin 1024)).inf fun k => negE (E (ix2 r k)) (M (ix2 r k)) (D (ix2 r k))) := by
  unfold k0_pay2
  try dsimp only
  rw [shapeCast_self, minimumf_apply, col_of_vec]
  exact congrArg (min (acc (ix2 r (0 : Fin 1)))) (rowMin_apply _ reduces_S1024x1024_S1024 _ _ r)

theorem pay3_apply (j : S1024x1.Idx) : k0_pay3 (F := Ideal) j = (⊥ : EReal) := by
  unfold k0_pay3
  rw [shapeCast_self]
  exact negInf_f32

theorem pay4_apply (j : S1024x1.Idx) : k0_pay4 (F := Ideal) j = (⊤ : EReal) := by
  unfold k0_pay4
  rw [shapeCast_self]
  exact posInf_f32

/-- The tile's distance at (r, k). -/
theorem pay5_apply (x0 x1 : FVec Ideal S1024x128 .bf16) (x2 : FVec Ideal S1024x1 .f32) (x3 : FVec Ideal S1x1024 .f32) (r k : Fin 1024) :
    k0_pay5 (F := Ideal) x0 x1 x2 x3 (ix2 r k)
      = Ideal.sqrt (max ((x2 (ix2 r (0 : Fin 1)) + x3 (ix2 (0 : Fin 1) k))
          - Ideal.ofBits .f32 0x40000000#32 * ∑ q : Fin 128, x0 (ix2 r q) * x1 (ix2 k q)) (Ideal.ofBits .f32 0x00000000#32)) := by
  unfold k0_pay5
  try dsimp only
  simp only [shapeCast_self]
  have hmm : matmul dot_S1024x128_S128x1024_S1024x1024_1_0_0_1_n_n none x0
        (transpose S128x1024 [1, 0] x1 transposes_S1024x128_p1_0_S128x1024) (constant S1024x1024 .f32 0x00000000#32) (ix2 r k)
      = ∑ q : Fin 128, x0 (ix2 r q) * x1 (ix2 k q) := by
    refine (Idealize.ShloMosaic.PlainProduct.matmul_zero_at 1024 128 1024 x0
      (transpose S128x1024 [1, 0] x1 transposes_S1024x128_p1_0_S128x1024) r k).trans ?_
    exact Finset.sum_congr rfl fun q _ => by rw [transpose_ix2_apply]
  show Ideal.sqrt (max ((broadcastTo S1024x1024 x2 broadcasts_S1024x1_S1024x1024 (ix2 r k)
      + broadcastTo S1024x1024 x3 broadcasts_S1x1024_S1024x1024 (ix2 r k))
      - Ideal.ofBits .f32 0x40000000#32 * matmul dot_S1024x128_S128x1024_S1024x1024_1_0_0_1_n_n none x0
        (transpose S128x1024 [1, 0] x1 transposes_S1024x128_p1_0_S128x1024) (constant S1024x1024 .f32 0x00000000#32) (ix2 r k))
      (Ideal.ofBits .f32 0x00000000#32)) = _
  rw [hmm, bcast_col, broadcastTo_1b_ab_apply]

/-- The tile's label mask at (r, k). -/
theorem pay6_apply (x4 : IVec S1024x1 32) (x5 : IVec S1x1024 32) (r k : Fin 1024) :
    k0_pay6 (F := Ideal) x4 x5 (ix2 r k) = IntOp.cmpi .eq (x4 (ix2 r (0 : Fin 1))) (x5 (ix2 (0 : Fin 1) k)) := by
  unfold k0_pay6
  try dsimp only
  simp only [shapeCast_self]
  show IntOp.cmpi .eq (broadcastTo S1024x1024 x4 broadcasts_S1024x1_S1024x1024 (ix2 r k))
    (broadcastTo S1024x1024 x5 broadcasts_S1x1024_S1024x1024 (ix2 r k)) = _
  rw [bcast_col, broadcastTo_1b_ab_apply]

theorem word_affine (a r : ℕ) (ha : a < 8) (hr : r < 1024) :
    IntOp.addi (Scalar.muli (BitVec.ofNat 32 a) 1024#32) (BitVec.ofNat 32 r) = BitVec.ofNat 32 (1024 * a + r) := by
  apply BitVec.eq_of_toNat_eq
  simp only [IntOp.addi, Scalar.muli, IntOp.muli, BitVec.toNat_add, BitVec.toNat_mul, BitVec.toNat_ofNat]
  omega

/-- The tile's diagonal mask at (r, k): global row equals global column, as 32-bit words. -/
theorem pay7_apply (i : grid0.Coords) (r k : Fin 1024) :
    k0_pay7 i (ix2 r k) = IntOp.cmpi .eq (BitVec.ofNat 32 (1024 * (i 0).val + r.val)) (BitVec.ofNat 32 (1024 * (i 1).val + k.val)) := by
  unfold k0_pay7
  try dsimp only
  show IntOp.cmpi .eq (IntOp.addi (Scalar.muli (BitVec.ofNat 32 (i 0).val) 1024#32) (iota .tc S1024x1024 32 [0] iota_S1024x1024_d0_w32 (ix2 r k)))
    (IntOp.addi (Scalar.muli (BitVec.ofNat 32 (i 1).val) 1024#32) (iota .tc S1024x1024 32 [1] iota_S1024x1024_d1_w32 (ix2 r k))) = _
  rw [iota_single_apply, iota_single_apply]
  show IntOp.cmpi .eq (IntOp.addi (Scalar.muli (BitVec.ofNat 32 (i 0).val) 1024#32) (BitVec.ofNat 32 r.val))
    (IntOp.addi (Scalar.muli (BitVec.ofNat 32 (i 1).val) 1024#32) (BitVec.ofNat 32 k.val)) = _
  rw [word_affine _ _ (i 0).isLt r.isLt, word_affine _ _ (i 1).isLt k.isLt]

end Cert.KernelIdeal.Tri

end
-- ==== Proof.KernelIdeal.Fold.lean ====
/-
  The running columns in closed form, and the two result arrays. At point 8 i + j the running maximum of local row r
  is the supremum, over column tiles 0 … j, of the tiles' row suprema of masked positive distances, and the running
  minimum the infimum of their row infima of masked negative distances: by induction on the point, a point's value
  being its tile folded into the point before's. At j = 7 the output blocks receive the running columns, so each
  result array holds, at row 1024 i + r, the supremum (the infimum) over all eight column tiles.
-/
import proofs.«180511_j70368744178174_1_alg».proof.Proof.KernelIdeal.Vals
import proofs.«180511_j70368744178174_1_alg».proof.Proof.KernelIdeal.Tile

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Tri.Spec

variable (m : (ℓ : Loc nD τ sig) → Buf (Elt Ideal) ℓ) (c : Dev nD)

/-- A tile's masked positive and negative distances at (r, k). -/
def Pt (t : Fin cfg0.N) (r k : Fin 1024) : EReal := posE (tE t (ix2 r k)) (tM m c t (ix2 r k)) (tD m c t (ix2 r k))
def Nt (t : Fin cfg0.N) (r k : Fin 1024) : EReal := negE (tE t (ix2 r k)) (tM m c t (ix2 r k)) (tD m c t (ix2 r k))

/-- The row supremum (infimum) of the tile at position `p` of the grid. -/
def rowSup (p : ℕ) (r : Fin 1024) : EReal :=
  if h : p < cfg0.N then (Finset.univ : Finset (Fin 1024)).sup (fun k => Pt m c ⟨p, h⟩ r k) else ⊥
def rowInf (p : ℕ) (r : Fin 1024) : EReal :=
  if h : p < cfg0.N then (Finset.univ : Finset (Fin 1024)).inf (fun k => Nt m c ⟨p, h⟩ r k) else ⊤

/-- The first tile of a row of tiles: the running maximum is the tile's row supremum. -/
theorem first_max (n : ℕ) (hn : n < cfg0.N) (h0 : n % 8 = 0) (r : Fin 1024) :
    (outsAt m c n hn).2.2.1 (ix2 r (0 : Fin 1)) = rowSup m c n r := by
  have h1 : ¬ n % 8 = 7 := by omega
  rw [show outsAt m c n hn = _ from outsAt_A m c ⟨n, hn⟩ h0 h1, colsA_A, pay1_apply, pay3_apply]
  unfold rowSup
  rw [dif_pos hn]
  exact max_eq_right bot_le

/-- Every other tile: the running maximum the point before left, joined with the tile's row supremum. -/
theorem step_max (n : ℕ) (hn : n + 1 < cfg0.N) (h0 : ¬ (n + 1) % 8 = 0) (r : Fin 1024) :
    (outsAt m c (n + 1) hn).2.2.1 (ix2 r (0 : Fin 1))
      = max ((outsAt m c n (Nat.lt_of_succ_lt hn)).2.2.1 (ix2 r (0 : Fin 1))) (rowSup m c (n + 1) r) := by
  by_cases h1 : (n + 1) % 8 = 7
  · rw [show outsAt m c (n + 1) hn = _ from outsAt_C m c ⟨n + 1, hn⟩ h0 h1, colsC_A, pay1_apply]
    unfold rowSup
    rw [dif_pos hn]
    rfl
  · rw [show outsAt m c (n + 1) hn = _ from outsAt_B m c ⟨n + 1, hn⟩ h0 h1, colsB_A, pay1_apply]
    unfold rowSup
    rw [dif_pos hn]
    rfl

/-- So after column tile j of row tile i the running maximum is the supremum over tiles 0 … j of the tiles' row suprema. -/
theorem run_max : ∀ (n : ℕ) (hn : n < cfg0.N) (r : Fin 1024),
    (outsAt m c n hn).2.2.1 (ix2 r (0 : Fin 1)) = (Finset.range (n % 8 + 1)).sup (fun j => rowSup m c (8 * (n / 8) + j) r)
  | 0, hn, r => by
    rw [first_max m c 0 hn rfl r]
    show _ = (Finset.range 1).sup _
    rw [Finset.range_one, Finset.sup_singleton]
  | n + 1, hn, r => by
    by_cases h0 : (n + 1) % 8 = 0
    · rw [first_max m c (n + 1) hn h0 r, h0]
      show _ = (Finset.range 1).sup _
      rw [Finset.range_one, Finset.sup_singleton]
      congr 1
      omega
    · have e1 : (n + 1) % 8 + 1 = (n % 8 + 1) + 1 := by omega
      have e2 : (n + 1) / 8 = n / 8 := by omega
      have e3 : 8 * (n / 8) + (n % 8 + 1) = n + 1 := by omega
      rw [step_max m c n hn h0 r, run_max n (Nat.lt_of_succ_lt hn) r, e2]
      conv_rhs => rw [e1, Finset.range_add_one, Finset.sup_insert, e3]
      exact max_comm _ _

/-- The first tile of a row of tiles: the running minimum is the tile's row infimum. -/
theorem first_min (n : ℕ) (hn : n < cfg0.N) (h0 : n % 8 = 0) (r : Fin 1024) :
    (outsAt m c n hn).2.2.2 (ix2 r (0 : Fin 1)) = rowInf m c n r := by
  have h1 : ¬ n % 8 = 7 := by omega
  rw [show outsAt m c n hn = _ from outsAt_A m c ⟨n, hn⟩ h0 h1, colsA_B, pay2_apply, pay4_apply]
  unfold rowInf
  rw [dif_pos hn]
  exact min_eq_right le_top

/-- Every other tile: the running minimum the point before left, met with the tile's row infimum. -/
theorem step_min (n : ℕ) (hn : n + 1 < cfg0.N) (h0 : ¬ (n + 1) % 8 = 0) (r : Fin 1024) :
    (outsAt m c (n + 1) hn).2.2.2 (ix2 r (0 : Fin 1))
      = min ((outsAt m c n (Nat.lt_of_succ_lt hn)).2.2.2 (ix2 r (0 : Fin 1))) (rowInf m c (n + 1) r) := by
  by_cases h1 : (n + 1) % 8 = 7
  · rw [show outsAt m c (n + 1) hn = _ from outsAt_C m c ⟨n + 1, hn⟩ h0 h1, colsC_B, pay2_apply]
    unfold rowInf
    rw [dif_pos hn]
    rfl
  · rw [show outsAt m c (n + 1) hn = _ from outsAt_B m c ⟨n + 1, hn⟩ h0 h1, colsB_B, pay2_apply]
    unfold rowInf
    rw [dif_pos hn]
    rfl

/-- So after column tile j of row tile i the running minimum is the infimum over tiles 0 … j of the tiles' row infima. -/
theorem run_min : ∀ (n : ℕ) (hn : n < cfg0.N) (r : Fin 1024),
    (outsAt m c n hn).2.2.2 (ix2 r (0 : Fin 1)) = (Finset.range (n % 8 + 1)).inf (fun j => rowInf m c (8 * (n / 8) + j) r)
  | 0, hn, r => by
    rw [first_min m c 0 hn rfl r]
    show _ = (Finset.range 1).inf _
    rw [Finset.range_one, Finset.inf_singleton]
  | n + 1, hn, r => by
    by_cases h0 : (n + 1) % 8 = 0
    · rw [first_min m c (n + 1) hn h0 r, h0]
      show _ = (Finset.range 1).inf _
      rw [Finset.range_one, Finset.inf_singleton]
      congr 1
      omega
    · have e1 : (n + 1) % 8 + 1 = (n % 8 + 1) + 1 := by omega
      have e2 : (n + 1) / 8 = n / 8 := by omega
      have e3 : 8 * (n / 8) + (n % 8 + 1) = n + 1 := by omega
      rw [step_min m c n hn h0 r, run_min n (Nat.lt_of_succ_lt hn) r, e2]
      conv_rhs => rw [e1, Finset.range_add_one, Finset.inf_insert, e3]
      exact min_comm _ _

/-- At the last tile of a row of tiles the output blocks receive the running columns. -/
theorem out6_eq (t : Fin cfg0.N) (h1 : t.val % 8 = 7) : (outsAt m c t.val t.isLt).1 = (outsAt m c t.val t.isLt).2.2.1 := by
  have h0 : ¬ t.val % 8 = 0 := by omega
  rw [outsAt_C m c t h0 h1, colsC_6, colsC_A]
theorem out7_eq (t : Fin cfg0.N) (h1 : t.val % 8 = 7) : (outsAt m c t.val t.isLt).2.1 = (outsAt m c t.val t.isLt).2.2.2 := by
  have h0 : ¬ t.val % 8 = 0 := by omega
  rw [outsAt_C m c t h0 h1, colsC_7, colsC_B]

end Cert.KernelIdeal.Tri

end
-- ==== Proof.KernelIdeal.Blocks.lean ====
/-
  The blocks the body reads, as entries of the arrays the host lines before the region computed: at point 8 i + j the
  row-tile windows hold rows 1024 i … 1024 i + 1023 and the column-tile windows rows (or columns) 1024 j … 1024 j + 1023;
  and those arrays are the embeddings cast, the row sums of their squares as a column and as a row, and the labels
  as a column and as a row.
-/
import proofs.«180511_j70368744178174_1_alg».proof.Proof.KernelIdeal.Frame
import Idealize.ShloMosaic.Lib.Pipeline.Value
import Idealize.ShloMosaic.Lib.StableHlo.Run
import proofs.«180511_j70368744178174_1_alg».proof.Proof.LibColRow

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The global row of local row `r` of the row tile at point `t`, and the global column of local column `k` of its
    column tile. -/
def rowOf (t : Fin cfg0.N) (r : Fin 1024) : Fin 8192 :=
  ⟨1024 * (t.val / 8) + r.val, by have := t.isLt; have h : cfg0.N = 64 := N_0; omega⟩
def colOf (t : Fin cfg0.N) (k : Fin 1024) : Fin 8192 :=
  ⟨1024 * (t.val % 8) + k.val, by omega⟩

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx3 : ∀ t : Fin cfg0.N, win0_3.index t 0 = 0 ∧ win0_3.index t 1 = t.val % 8 :=
  (by decide +kernel : ∀ t : Fin grid0.N, win0_3.index t 0 = 0 ∧ win0_3.index t 1 = t.val % 8)
theorem idx4 : ∀ t : Fin cfg0.N, win0_4.index t 0 = t.val / 8 ∧ win0_4.index t 1 = 0 :=
  (by decide +kernel : ∀ t : Fin grid0.N, win0_4.index t 0 = t.val / 8 ∧ win0_4.index t 1 = 0)
theorem idx5 : ∀ t : Fin cfg0.N, win0_5.index t 0 = 0 ∧ win0_5.index t 1 = t.val % 8 :=
  (by decide +kernel : ∀ t : Fin grid0.N, win0_5.index t 0 = 0 ∧ win0_5.index t 1 = t.val % 8)

theorem iblk0_apply (c : Dev nD) (t : Fin cfg0.N) (r : Fin 1024) (k : Fin 128) :
    (iblk m c 0 t : Vec F S1024x128 .bf16) (ix2 r k) = V m c main_v0 (ix2 (rowOf t r) k) := by
  unfold iblk
  rw [View.read_apply]
  show V m c main_v0 _ = V m c main_v0 _
  congr 1
  funext a
  apply Fin.ext
  match a with
  | ⟨0, _⟩ => show win0_0.index t 0 * 1024 + 1 * r.val = 1024 * (t.val / 8) + r.val; rw [(idx0 t).1]; omega
  | ⟨1, _⟩ => show win0_0.index t 1 * 128 + 1 * k.val = k.val; rw [(idx0 t).2]; omega

theorem V_v0 (c : Dev nD) : (V m c main_v0 : S8192x128.Idx → Elt F .bf16)
    = truncf .bf16 (m ((c.tc : Thread nD τ).loc main_arg0)) bitsLt_bf16_f32 := by
  show StableHlo.after hostOps0 (fun b => m (c, b)) (Proc.devRef .tc main_v0) = _
  after_results
  try rfl

theorem V_v3 (c : Dev nD) : (V m c main_v3 : S8192x1.Idx → Elt F .f32)
    = shapeCast S8192x1 (Host.reduceAdd (mulf (m ((c.tc : Thread nD τ).loc main_arg0)) (m ((c.tc : Thread nD τ).loc main_arg0)))
        (constant (F := F) S_ .f32 0x00000000#32) reducesTo_S8192x128_S8192_d1 h_S_) shapeCasts_S8192_S8192x1 := by
  show StableHlo.after hostOps0 (fun b => m (c, b)) (Proc.devRef .tc main_v3) = _
  after_results
  try rfl

theorem iblk1_apply (c : Dev nD) (t : Fin cfg0.N) (r : Fin 1024) (k : Fin 128) :
    (iblk m c 1 t : Vec F S1024x128 .bf16) (ix2 r k) = V m c main_v0 (ix2 (colOf t r) k) := by
  unfold iblk
  rw [View.read_apply]
  show V m c main_v0 _ = V m c main_v0 _
  congr 1
  funext a
  apply Fin.ext
  match a with
  | ⟨0, _⟩ => show win0_1.index t 0 * 1024 + 1 * r.val = 1024 * (t.val % 8) + r.val; rw [(idx1 t).1]; omega
  | ⟨1, _⟩ => show win0_1.index t 1 * 128 + 1 * k.val = k.val; rw [(idx1 t).2]; omega

theorem iblk2_apply (c : Dev nD) (t : Fin cfg0.N) (r : Fin 1024) (z : Fin 1) :
    (iblk m c 2 t : Vec F S1024x1 .f32) (ix2 r z) = V m c main_v3 (ix2 (rowOf t r) (0 : Fin 1)) := by
  unfold iblk
  rw [View.read_apply]
  show V m c main_v3 _ = V m c main_v3 _
  congr 1
  funext a
  apply Fin.ext
  match a with
  | ⟨0, _⟩ => show win0_2.index t 0 * 1024 + 1 * r.val = 1024 * (t.val / 8) + r.val; rw [(idx2 t).1]; omega
  | ⟨1, _⟩ => show win0_2.index t 1 * 1 + 1 * z.val = 0; rw [(idx2 t).2]; omega

theorem iblk3_apply (c : Dev nD) (t : Fin cfg0.N) (z : Fin 1) (k : Fin 1024) :
    (iblk m c 3 t : Vec F S1x1024 .f32) (ix2 z k) = V m c main_v4 (ix2 (0 : Fin 1) (colOf t k)) := by
  unfold iblk
  rw [View.read_apply]
  show V m c main_v4 _ = V m c main_v4 _
  congr 1
  funext a
  apply Fin.ext
  match a with
  | ⟨0, _⟩ => show win0_3.index t 0 * 1 + 1 * z.val = 0; rw [(idx3 t).1]; omega
  | ⟨1, _⟩ => show win0_3.index t 1 * 1024 + 1 * k.val = 1024 * (t.val % 8) + k.val; rw [(idx3 t).2]; omega

theorem iblk4_apply (c : Dev nD) (t : Fin cfg0.N) (r : Fin 1024) (z : Fin 1) :
    (iblk m c 4 t : Vec F S1024x1 .i32) (ix2 r z) = V m c main_v5 (ix2 (rowOf t r) (0 : Fin 1)) := by
  unfold iblk
  rw [View.read_apply]
  show V m c main_v5 _ = V m c main_v5 _
  congr 1
  funext a
  apply Fin.ext
  match a with
  | ⟨0, _⟩ => show win0_4.index t 0 * 1024 + 1 * r.val = 1024 * (t.val / 8) + r.val; rw [(idx4 t).1]; omega
  | ⟨1, _⟩ => show win0_4.index t 1 * 1 + 1 * z.val = 0; rw [(idx4 t).2]; omega

theorem iblk5_apply (c : Dev nD) (t : Fin cfg0.N) (z : Fin 1) (k : Fin 1024) :
    (iblk m c 5 t : Vec F S1x1024 .i32) (ix2 z k) = V m c main_v6 (ix2 (0 : Fin 1) (colOf t k)) := by
  unfold iblk
  rw [View.read_apply]
  show V m c main_v6 _ = V m c main_v6 _
  congr 1
  funext a
  apply Fin.ext
  match a with
  | ⟨0, _⟩ => show win0_5.index t 0 * 1 + 1 * z.val = 0; rw [(idx5 t).1]; omega
  | ⟨1, _⟩ => show win0_5.index t 1 * 1024 + 1 * k.val = 1024 * (t.val % 8) + k.val; rw [(idx5 t).2]; omega

theorem V_v4 (c : Dev nD) : (V m c main_v4 : S1x8192.Idx → Elt F .f32)
    = shapeCast S1x8192 (Host.reduceAdd (mulf (m ((c.tc : Thread nD τ).loc main_arg0)) (m ((c.tc : Thread nD τ).loc main_arg0)))
        (constant (F := F) S_ .f32 0x00000000#32) reducesTo_S8192x128_S8192_d1 h_S_) shapeCasts_S8192_S1x8192 := by
  show StableHlo.after hostOps0 (fun b => m (c, b)) (Proc.devRef .tc main_v4) = _
  after_results
  try rfl

theorem V_v5 (c : Dev nD) : (V m c main_v5 : S8192x1.Idx → Elt F .i32)
    = shapeCast S8192x1 (m ((c.tc : Thread nD τ).loc main_arg1)) shapeCasts_S8192_S8192x1 := by
  show StableHlo.after hostOps0 (fun b => m (c, b)) (Proc.devRef .tc main_v5) = _
  after_results
  try rfl

theorem V_v6 (c : Dev nD) : (V m c main_v6 : S1x8192.Idx → Elt F .i32)
    = shapeCast S1x8192 (m ((c.tc : Thread nD τ).loc main_arg1)) shapeCasts_S8192_S1x8192 := by
  show StableHlo.after hostOps0 (fun b => m (c, b)) (Proc.devRef .tc main_v6) = _
  after_results
  try rfl

end Cert.KernelIdeal.Tri

end
-- ==== Proof.KernelIdeal.Rows.lean ====
/-
  The two result arrays of the region against the common mathematics. A tile's masked distances are the global
  matrices P and N read at the tile's rows and columns: the row-tile windows hold rows 1024 i + r, the column-tile
  windows rows 1024 j + k, of the embeddings cast (a cast changes nothing on the extended reals), of their squared
  norms and of the labels, and the diagonal test compares those global positions. So the supremum over the eight
  column tiles of a row's tile suprema is the row's hardest positive, and likewise for the infima and the hardest
  negative; the eight write-backs of each output place these, block by block, into the whole array.
-/
import proofs.«180511_j70368744178174_1_alg».proof.Proof.KernelIdeal.Fold
import proofs.«180511_j70368744178174_1_alg».proof.Proof.KernelIdeal.Blocks

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Tri.Spec Cert.Lib.ColRow

variable (m : (ℓ : Loc nD τ sig) → Buf (Elt Ideal) ℓ) (c : Dev nD)

/-- The embeddings and the labels the program is run on, and the squared row norms as the host lines before the
    region compute them. -/
abbrev emb : SE.Idx → EReal := m ((c.tc : Thread nD τ).loc main_arg0)
abbrev lab : SL.Idx → BitVec 32 := m ((c.tc : Thread nD τ).loc main_arg1)
def sqn : SL.Idx → EReal :=
  Host.reduceAdd (F := Ideal) (mulf (m ((c.tc : Thread nD τ).loc main_arg0)) (m ((c.tc : Thread nD τ).loc main_arg0)))
    (constant (F := Ideal) S_ .f32 0x00000000#32) reducesTo_S8192x128_S8192_d1 h_S_

theorem coords_eq : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

theorem idx6 : ∀ t : Fin cfg0.N, win0_6.index t 0 = t.val / 8 ∧ win0_6.index t 1 = 0 :=
  (by decide +kernel : ∀ t : Fin grid0.N, win0_6.index t 0 = t.val / 8 ∧ win0_6.index t 1 = 0)
theorem idx7 : ∀ t : Fin cfg0.N, win0_7.index t 0 = t.val / 8 ∧ win0_7.index t 1 = 0 :=
  (by decide +kernel : ∀ t : Fin grid0.N, win0_7.index t 0 = t.val / 8 ∧ win0_7.index t 1 = 0)
theorem xs6 : ∀ t : Fin cfg0.N, win0_6.xsize (grid0.coords t) 0 = 1024 ∧ win0_6.xsize (grid0.coords t) 1 = 1 :=
  (by decide +kernel : ∀ t : Fin grid0.N, win0_6.xsize (grid0.coords t) 0 = 1024 ∧ win0_6.xsize (grid0.coords t) 1 = 1)
theorem xs7 : ∀ t : Fin cfg0.N, win0_7.xsize (grid0.coords t) 0 = 1024 ∧ win0_7.xsize (grid0.coords t) 1 = 1 :=
  (by decide +kernel : ∀ t : Fin grid0.N, win0_7.xsize (grid0.coords t) 0 = 1024 ∧ win0_7.xsize (grid0.coords t) 1 = 1)

/-- The tile's diagonal mask is the global one. -/
theorem tE_eq (t : Fin cfg0.N) (r k : Fin 1024) : tE t (ix2 r k) = eye (rowOf t r) (colOf t k) := by
  refine (pay7_apply (grid0.coords t) r k).trans ?_
  rw [(coords_eq t).1, (coords_eq t).2]
  rfl

/-- The tile's label mask is the global one. -/
theorem tM_eq (t : Fin cfg0.N) (r k : Fin 1024) : tM m c t (ix2 r k) = same (lab m c) (rowOf t r) (colOf t k) := by
  refine (pay6_apply (iblk m c 4 t) (iblk m c 5 t) r k).trans ?_
  rw [iblk4_apply, iblk5_apply, V_v5, V_v6, col_of_vec, shapeCast_a_1a_apply]
  rfl

/-- The tile's distances are the global ones. -/
theorem tD_eq (t : Fin cfg0.N) (r k : Fin 1024) : tD m c t (ix2 r k) = dist (sqn m c) (emb m c) (rowOf t r) (colOf t k) := by
  refine (pay5_apply (iblk m c 0 t) (iblk m c 1 t) (iblk m c 2 t) (iblk m c 3 t) r k).trans ?_
  rw [iblk2_apply, iblk3_apply, V_v3, V_v4, col_of_vec, shapeCast_a_1a_apply]
  simp only [iblk0_apply, iblk1_apply, V_v0, truncf_apply]
  rfl

theorem Pt_eq (t : Fin cfg0.N) (r k : Fin 1024) :
    Pt m c t r k = P (sqn m c) (emb m c) (lab m c) (rowOf t r) (colOf t k) := by
  unfold Pt P
  rw [tE_eq, tM_eq, tD_eq]

theorem Nt_eq (t : Fin cfg0.N) (r k : Fin 1024) :
    Nt m c t r k = N (sqn m c) (emb m c) (lab m c) (rowOf t r) (colOf t k) := by
  unfold Nt N
  rw [tE_eq, tM_eq, tD_eq]

/-- A row's hardest positive is the supremum, over the eight column tiles, of the tiles' row suprema. -/
theorem sup_tiles (i : Fin 8) (r : Fin 1024) :
    (Finset.range 8).sup (fun j => rowSup m c (8 * i.val + j) r)
      = hpos (sqn m c) (emb m c) (lab m c) ⟨1024 * i.val + r.val, by omega⟩ := by
  have hN : cfg0.N = 64 := N_0
  apply le_antisymm
  · refine Finset.sup_le fun j hj => ?_
    have hj8 : j < 8 := Finset.mem_range.mp hj
    have hp : 8 * i.val + j < cfg0.N := by omega
    unfold rowSup
    rw [dif_pos hp]
    refine Finset.sup_le fun k _ => ?_
    rw [Pt_eq]
    have hR : rowOf ⟨8 * i.val + j, hp⟩ r = ⟨1024 * i.val + r.val, by omega⟩ :=
      Fin.ext (by show 1024 * ((8 * i.val + j) / 8) + r.val = 1024 * i.val + r.val; omega)
    rw [hR]
    exact Finset.le_sup (f := fun C => P (sqn m c) (emb m c) (lab m c) ⟨1024 * i.val + r.val, by omega⟩ C) (Finset.mem_univ _)
  · refine Finset.sup_le fun C _ => ?_
    have hjj : C.val / 1024 < 8 := by omega
    have hp : 8 * i.val + C.val / 1024 < cfg0.N := by omega
    refine le_trans ?_ (Finset.le_sup (f := fun j => rowSup m c (8 * i.val + j) r) (Finset.mem_range.mpr hjj))
    show _ ≤ rowSup m c (8 * i.val + C.val / 1024) r
    unfold rowSup
    rw [dif_pos hp]
    refine le_trans (le_of_eq ?_) (Finset.le_sup (f := fun k => Pt m c ⟨8 * i.val + C.val / 1024, hp⟩ r k)
      (Finset.mem_univ (⟨C.val % 1024, Nat.mod_lt _ (by decide)⟩ : Fin 1024)))
    show _ = Pt m c ⟨8 * i.val + C.val / 1024, hp⟩ r ⟨C.val % 1024, Nat.mod_lt _ (by decide)⟩
    rw [Pt_eq]
    exact congrArg₂ (P (sqn m c) (emb m c) (lab m c))
      (Fin.ext (by show 1024 * i.val + r.val = 1024 * ((8 * i.val + C.val / 1024) / 8) + r.val; omega))
      (Fin.ext (by show C.val = 1024 * ((8 * i.val + C.val / 1024) % 8) + C.val % 1024; omega))

/-- A row's hardest negative is the infimum, over the eight column tiles, of the tiles' row infima. -/
theorem inf_tiles (i : Fin 8) (r : Fin 1024) :
    (Finset.range 8).inf (fun j => rowInf m c (8 * i.val + j) r)
      = hneg (sqn m c) (emb m c) (lab m c) ⟨1024 * i.val + r.val, by omega⟩ := by
  have hN : cfg0.N = 64 := N_0
  apply le_antisymm
  · refine Finset.le_inf fun C _ => ?_
    have hjj : C.val / 1024 < 8 := by omega
    have hp : 8 * i.val + C.val / 1024 < cfg0.N := by omega
    refine le_trans (Finset.inf_le (f := fun j => rowInf m c (8 * i.val + j) r) (Finset.mem_range.mpr hjj)) ?_
    show rowInf m c (8 * i.val + C.val / 1024) r ≤ _
    unfold rowInf
    rw [dif_pos hp]
    refine le_trans (Finset.inf_le (f := fun k => Nt m c ⟨8 * i.val + C.val / 1024, hp⟩ r k)
      (Finset.mem_univ (⟨C.val % 1024, Nat.mod_lt _ (by decide)⟩ : Fin 1024))) (le_of_eq ?_)
    show Nt m c ⟨8 * i.val + C.val / 1024, hp⟩ r ⟨C.val % 1024, Nat.mod_lt _ (by decide)⟩ = _
    rw [Nt_eq]
    exact congrArg₂ (N (sqn m c) (emb m c) (lab m c))
      (Fin.ext (by show 1024 * ((8 * i.val + C.val / 1024) / 8) + r.val = 1024 * i.val + r.val; omega))
      (Fin.ext (by show 1024 * ((8 * i.val + C.val / 1024) % 8) + C.val % 1024 = C.val; omega))
  · refine Finset.le_inf fun j hj => ?_
    have hj8 : j < 8 := Finset.mem_range.mp hj
    have hp : 8 * i.val + j < cfg0.N := by omega
    unfold rowInf
    rw [dif_pos hp]
    refine Finset.le_inf fun k _ => ?_
    rw [Nt_eq]
    have hR : rowOf ⟨8 * i.val + j, hp⟩ r = ⟨1024 * i.val + r.val, by omega⟩ :=
      Fin.ext (by show 1024 * ((8 * i.val + j) / 8) + r.val = 1024 * i.val + r.val; omega)
    rw [hR]
    exact Finset.inf_le (f := fun C => N (sqn m c) (emb m c) (lab m c) ⟨1024 * i.val + r.val, by omega⟩ C) (Finset.mem_univ _)

/-- The array output 6 ends holding: at row R, the row's hardest positive. -/
def Gpos : S8192x1.Idx → EReal := fun y => hpos (sqn m c) (emb m c) (lab m c) ⟨(y 0).val, idx2_lt0 y⟩

/-- What the point 8 i + 7 writes back is block i of it. -/
theorem flushed6 (t : Fin cfg0.N) (hf : (cfg0.win 6).flush t = true) :
    (dats m 0 c).flushed 6 t = ((cfg0.win 6).blk t).view.read (Elt Ideal) (Gpos m c) := by
  have hN : cfg0.N = 64 := N_0
  have h7 : t.val % 8 = 7 := (flush0_6 t).mp hf
  have hi : t.val / 8 < 8 := by have := t.isLt; omega
  show (cfg0.win 6).cut (grid0.coords t) ((dats m 0 c).after 6 t) = _
  rw [after6, out6_eq m c t h7]
  funext j
  obtain ⟨r, z, rfl⟩ : ∃ (r : Fin 1024) (z : Fin 1), j = ix2 r z := ⟨j 0, j 1, eq_ix2 j⟩
  obtain rfl : z = 0 := Subsingleton.elim _ _
  rw [View.read_apply]
  show (outsAt m c t.val t.isLt).2.2.1 (ix2 r (0 : Fin 1)) = Gpos m c _
  rw [run_max m c t.val t.isLt r, h7, show 8 * (t.val / 8) = 8 * (⟨t.val / 8, hi⟩ : Fin 8).val from rfl, sup_tiles m c ⟨t.val / 8, hi⟩ r]
  unfold Gpos
  refine congrArg (hpos (sqn m c) (emb m c) (lab m c)) (Fin.ext ?_)
  show 1024 * (t.val / 8) + r.val = win0_6.index t 0 * 1024 + 1 * r.val
  rw [(idx6 t).1]
  omega

/-- The eight write-backs tile the array. -/
theorem cover6 (i : S8192x1.Idx) : ∃ t : Fin cfg0.N, (cfg0.win 6).flush t = true ∧ i ∈ ((cfg0.win 6).blk t).view.set := by
  have hN : cfg0.N = 64 := N_0
  have h0 : (i 0).val < 8192 := idx2_lt0 i
  have h1 : (i 1).val < 1 := idx2_lt1 i
  have ht : 8 * ((i 0).val / 1024) + 7 < cfg0.N := by omega
  have hq : (⟨8 * ((i 0).val / 1024) + 7, ht⟩ : Fin cfg0.N).val / 8 = (i 0).val / 1024 := by
    show (8 * ((i 0).val / 1024) + 7) / 8 = _
    omega
  refine ⟨⟨8 * ((i 0).val / 1024) + 7, ht⟩, (flush0_6 _).mpr (by show (8 * ((i 0).val / 1024) + 7) % 8 = 7; omega), ?_⟩
  show i ∈ ((View.whole main_v7_0).slice (win0_6.rect ⟨8 * ((i 0).val / 1024) + 7, ht⟩)).set
  rw [View.set_slice_whole, Rect.mem_set_unit]
  intro a
  match a with
  | ⟨0, _⟩ =>
    show win0_6.index ⟨8 * ((i 0).val / 1024) + 7, ht⟩ 0 * 1024 ≤ (i 0).val
      ∧ (i 0).val < win0_6.index ⟨8 * ((i 0).val / 1024) + 7, ht⟩ 0 * 1024 + win0_6.xsize (grid0.coords ⟨8 * ((i 0).val / 1024) + 7, ht⟩) 0
    rw [(idx6 _).1, (xs6 _).1, hq]
    omega
  | ⟨1, _⟩ =>
    show win0_6.index ⟨8 * ((i 0).val / 1024) + 7, ht⟩ 1 * 1 ≤ (i 1).val
      ∧ (i 1).val < win0_6.index ⟨8 * ((i 0).val / 1024) + 7, ht⟩ 1 * 1 + win0_6.xsize (grid0.coords ⟨8 * ((i 0).val / 1024) + 7, ht⟩) 1
    rw [(idx6 _).2, (xs6 _).2]
    omega

theorem final6 : (dats m 0 c).arrAt 6 cfg0.N = Gpos m c :=
  (dats m 0 c).arrAt_eq_of_cover 6 (Gpos m c) (flushed6 m c) cover6

/-- The array output 7 ends holding: at row R, the row's hardest negative. -/
def Gneg : S8192x1.Idx → EReal := fun y => hneg (sqn m c) (emb m c) (lab m c) ⟨(y 0).val, idx2_lt0 y⟩

/-- What the point 8 i + 7 writes back is block i of it. -/
theorem flushed7 (t : Fin cfg0.N) (hf : (cfg0.win 7).flush t = true) :
    (dats m 0 c).flushed 7 t = ((cfg0.win 7).blk t).view.read (Elt Ideal) (Gneg m c) := by
  have hN : cfg0.N = 64 := N_0
  have h7 : t.val % 8 = 7 := (flush0_7 t).mp hf
  have hi : t.val / 8 < 8 := by have := t.isLt; omega
  show (cfg0.win 7).cut (grid0.coords t) ((dats m 0 c).after 7 t) = _
  rw [after7, out7_eq m c t h7]
  funext j
  obtain ⟨r, z, rfl⟩ : ∃ (r : Fin 1024) (z : Fin 1), j = ix2 r z := ⟨j 0, j 1, eq_ix2 j⟩
  obtain rfl : z = 0 := Subsingleton.elim _ _
  rw [View.read_apply]
  show (outsAt m c t.val t.isLt).2.2.2 (ix2 r (0 : Fin 1)) = Gneg m c _
  rw [run_min m c t.val t.isLt r, h7, show 8 * (t.val / 8) = 8 * (⟨t.val / 8, hi⟩ : Fin 8).val from rfl, inf_tiles m c ⟨t.val / 8, hi⟩ r]
  unfold Gneg
  refine congrArg (hneg (sqn m c) (emb m c) (lab m c)) (Fin.ext ?_)
  show 1024 * (t.val / 8) + r.val = win0_7.index t 0 * 1024 + 1 * r.val
  rw [(idx7 t).1]
  omega

/-- The eight write-backs tile the array. -/
theorem cover7 (i : S8192x1.Idx) : ∃ t : Fin cfg0.N, (cfg0.win 7).flush t = true ∧ i ∈ ((cfg0.win 7).blk t).view.set := by
  have hN : cfg0.N = 64 := N_0
  have h0 : (i 0).val < 8192 := idx2_lt0 i
  have h1 : (i 1).val < 1 := idx2_lt1 i
  have ht : 8 * ((i 0).val / 1024) + 7 < cfg0.N := by omega
  have hq : (⟨8 * ((i 0).val / 1024) + 7, ht⟩ : Fin cfg0.N).val / 8 = (i 0).val / 1024 := by
    show (8 * ((i 0).val / 1024) + 7) / 8 = _
    omega
  refine ⟨⟨8 * ((i 0).val / 1024) + 7, ht⟩, (flush0_7 _).mpr (by show (8 * ((i 0).val / 1024) + 7) % 8 = 7; omega), ?_⟩
  show i ∈ ((View.whole main_v7_1).slice (win0_7.rect ⟨8 * ((i 0).val / 1024) + 7, ht⟩)).set
  rw [View.set_slice_whole, Rect.mem_set_unit]
  intro a
  match a with
  | ⟨0, _⟩ =>
    show win0_7.index ⟨8 * ((i 0).val / 1024) + 7, ht⟩ 0 * 1024 ≤ (i 0).val
      ∧ (i 0).val < win0_7.index ⟨8 * ((i 0).val / 1024) + 7, ht⟩ 0 * 1024 + win0_7.xsize (grid0.coords ⟨8 * ((i 0).val / 1024) + 7, ht⟩) 0
    rw [(idx7 _).1, (xs7 _).1, hq]
    omega
  | ⟨1, _⟩ =>
    show win0_7.index ⟨8 * ((i 0).val / 1024) + 7, ht⟩ 1 * 1 ≤ (i 1).val
      ∧ (i 1).val < win0_7.index ⟨8 * ((i 0).val / 1024) + 7, ht⟩ 1 * 1 + win0_7.xsize (grid0.coords ⟨8 * ((i 0).val / 1024) + 7, ht⟩) 1
    rw [(idx7 _).2, (xs7 _).2]
    omega

theorem final7 : (dats m 0 c).arrAt 7 cfg0.N = Gneg m c :=
  (dats m 0 c).arrAt_eq_of_cover 7 (Gneg m c) (flushed7 m c) cover7

end Cert.KernelIdeal.Tri

end
-- ==== Proof.RefRead.lean ====
/-
  The reference read entry by entry against the common mathematics: its masked positive and negative distance
  matrices are P and N of its own squared row norms, the embeddings and the labels; its two row reductions are the
  hardest positive and the hardest negative of each row. The reference compares the labels the other way round (equality
  of words is symmetric), spells -inf as the negation of +inf, and guards the square root against a zero argument.
-/
import proofs.«180511_j70368744178174_1_alg».proof.Proof.Gen.ReferenceIdeal.Run
import proofs.«180511_j70368744178174_1_alg».proof.Proof.Gen.ReferenceIdeal.Read
import proofs.«180511_j70368744178174_1_alg».proof.Proof.Spec
import proofs.«180511_j70368744178174_1_alg».proof.Proof.LibRowExtrema

noncomputable section

namespace Cert.ReferenceIdeal.TriRef

open Idealize.ShloMosaic Idealize.ShloMosaic.ValueIdx Idealize.SL.Sem
open Cert.ReferenceIdeal Cert.ReferenceIdeal.Gen Cert.ReferenceIdeal.Read Cert.Tri.Spec Cert.Lib.RowExtrema

variable (a : (⟨S8192x128, .f32⟩ : BufTy).Contents (Elt Ideal)) (l : (⟨S8192, .i32⟩ : BufTy).Contents (Elt Ideal))

theorem i_q_row (R C : Fin 8192) : idx_main_v2 (idx_main_v4 (ix2 R C)) = ix1 R :=
  funext fun x => by match x with | ⟨0, _⟩ => rfl
theorem i_q_col (R C : Fin 8192) : idx_main_v3 (idx_main_v5 (ix2 R C)) = ix1 C :=
  funext fun x => by match x with | ⟨0, _⟩ => rfl
theorem i_lhs (R C : Fin 8192) (k : Fin 128) : lidx_main_v8 (ix2 R C) k = ix2 R k :=
  funext fun x => by match x with | ⟨0, _⟩ => rfl | ⟨1, _⟩ => rfl
theorem i_rhs (R C : Fin 8192) (k : Fin 128) : idx_main_v7 (ridx_main_v8 (ix2 R C) k) = ix2 C k :=
  funext fun x => by match x with | ⟨0, _⟩ => rfl | ⟨1, _⟩ => rfl
theorem i_lab_col (R C : Fin 8192) : idx_main_v19 (idx_main_v21 (ix2 R C)) = ix1 C :=
  funext fun x => by match x with | ⟨0, _⟩ => rfl
theorem i_lab_row (R C : Fin 8192) : idx_main_v20 (idx_main_v22 (ix2 R C)) = ix1 R :=
  funext fun x => by match x with | ⟨0, _⟩ => rfl

/-- The squared distance before clamping. -/
theorem d2_eq (R C : Fin 8192) :
    val_main_v11 (F := Ideal) a (ix2 R C)
      = (val_main_v1 (F := Ideal) a (ix1 R) + val_main_v1 (F := Ideal) a (ix1 C))
          - Ideal.ofBits .f32 0x40000000#32 * ∑ k : Fin 128, a (ix2 R k) * a (ix2 C k) := by
  rw [val_main_v11_apply, val_main_v6_apply, val_main_v4_apply, val_main_v2_apply, val_main_v5_apply, val_main_v3_apply,
    val_main_v10_apply, val_main_v9_apply, val_main_cst_0_apply, val_main_v8_apply, i_q_row, i_q_col]
  simp only [val_main_v7_apply, i_lhs, i_rhs]
  rfl

/-- The distance. -/
theorem dist_eq (R C : Fin 8192) :
    val_main_v18 (F := Ideal) a (ix2 R C) = dist (val_main_v1 (F := Ideal) a) a R C := by
  rw [val_main_v18_apply, val_main_v17_apply, val_main_v16_apply, val_main_v15_apply, val_main_call0_v1_apply,
    val_main_call0_v0_apply, val_main_cst_3_apply, val_main_call1_v1_apply, val_main_call1_v0_apply, val_main_cst_4_apply,
    val_main_v14_apply, val_main_cst_2_apply, val_main_v13_apply, val_main_v12_apply, val_main_cst_1_apply, d2_eq]
  exact guarded_sqrt _

theorem negTop : FloatOps.hostNegf (F := Ideal) (FloatOps.ofBits .f32 0x7F800000#32) = Ideal.ofBits .f32 0xFF800000#32 := by
  show -(Ideal.ofBits .f32 0x7F800000#32) = Ideal.ofBits .f32 0xFF800000#32
  rw [posInf_f32, negInf_f32]
  rfl

theorem eye_eq (R C : Fin 8192) : val_main_v28 (F := Ideal) (ix2 R C) = eye R C := by
  rw [val_main_v28_apply, val_main_v27_apply, val_main_v24_apply, val_main_v26_apply, val_main_c_apply, val_main_v25_apply]
  show IntOp.cmpi .eq (BitVec.ofNat 32 R.val + 0#32) (BitVec.ofNat 32 C.val) = _
  rw [BitVec.add_zero]
  rfl

theorem same_eq (R C : Fin 8192) : val_main_v23 (F := Ideal) l (ix2 R C) = same l R C := by
  rw [val_main_v23_apply, val_main_v21_apply, val_main_v19_apply, val_main_v22_apply, val_main_v20_apply, i_lab_col, i_lab_row]
  exact cmpi_eq_comm _ _

/-- The reference's masked positive distances. -/
theorem P_eq (R C : Fin 8192) : val_main_v31 (F := Ideal) a l (ix2 R C) = P (val_main_v1 (F := Ideal) a) a l R C := by
  rw [val_main_v31_apply, eye_eq, val_main_call3_v0_apply, val_main_v30_apply, val_main_cst_6_apply, negTop,
    val_main_v29_apply, same_eq, dist_eq, val_main_call2_v0_apply, val_main_cst_5_apply]
  rfl

/-- The reference's masked negative distances. -/
theorem N_eq (R C : Fin 8192) : val_main_v35 (F := Ideal) a l (ix2 R C) = N (val_main_v1 (F := Ideal) a) a l R C := by
  rw [val_main_v35_apply, eye_eq, val_main_call5_v0_apply, val_main_v34_apply, val_main_cst_8_apply, negTop,
    val_main_v33_apply, same_eq, dist_eq, val_main_call4_v0_apply, val_main_v32_apply, val_main_cst_7_apply, negTop]
  rfl

/-- The reference's hardest positive of each row. -/
theorem hpos_eq (R : Fin 8192) : val_main_v36 (F := Ideal) a l (ix1 R) = hpos (val_main_v1 (F := Ideal) a) a l R := by
  unfold val_main_v36
  rw [hostRowMax_apply (val_main_v31 (F := Ideal) a l) (val_main_cst_9 (F := Ideal)) (fun i => negInf_f32)
    reducesTo_S8192x8192_S8192_d1 (by decide) h_S_ R]
  exact congrArg (Finset.univ : Finset (Fin 8192)).sup (funext fun C => P_eq a l R C)

/-- The reference's hardest negative of each row. -/
theorem hneg_eq (R : Fin 8192) : val_main_v37 (F := Ideal) a l (ix1 R) = hneg (val_main_v1 (F := Ideal) a) a l R := by
  unfold val_main_v37
  rw [hostRowMin_apply (val_main_v35 (F := Ideal) a l) (val_main_cst_10 (F := Ideal)) (fun i => posInf_f32)
    reducesTo_S8192x8192_S8192_d1 (by decide) h_S_ R]
  exact congrArg (Finset.univ : Finset (Fin 8192)).inf (funext fun C => N_eq a l R C)

end Cert.ReferenceIdeal.TriRef

end
-- ==== Proof.KernelIdeal.Loss.lean ====
/-
  The loss. After the region the host lines flatten the two result columns, subtract the hardest negative from the
  hardest positive row by row, add the margin, clamp at zero, sum and divide by the number of rows; the reference
  ends with the same lines applied to its two row reductions. The two columns being the reference's reductions row by
  row, the two scalars are equal.
-/
import proofs.«180511_j70368744178174_1_alg».proof.Proof.KernelIdeal.Rows
import proofs.«180511_j70368744178174_1_alg».proof.Proof.KernelIdeal.FrameClaim
import proofs.«180511_j70368744178174_1_alg».proof.Proof.RefRead

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Idealize.ShloMosaic.Pipeline Cert.Tri.Spec Cert.Lib.ColRow

variable (m : (ℓ : Loc nD τ sig) → Buf (Elt Ideal) ℓ) (c : Dev nD)

/-- The loss from the two result columns, as the host lines after the region compute it. -/
def lossOf (p n : FVec Ideal S8192x1 .f32) : FVec Ideal S_ .f32 :=
  Host.divf
    (Host.reduceAdd
      (maximumf (addf (subf (shapeCast S8192 p shapeCasts_S8192x1_S8192) (shapeCast S8192 n shapeCasts_S8192x1_S8192))
          (broadcastInDim S8192 ![] bcast_S_S8192 (constant (F := Ideal) S_ .f32 0x3F800000#32)))
        (broadcastInDim S8192 ![] bcast_S_S8192 (constant (F := Ideal) S_ .f32 0x00000000#32)))
      (constant (F := Ideal) S_ .f32 0x00000000#32) reducesTo_S8192_S_d0 h_S_)
    (constant (F := Ideal) S_ .f32 0x46000000#32)

/-- The program's result is the loss of the two columns the region leaves. -/
theorem Vt_v16 : Vt m c (Proc.devRef .tc main_v16)
    = lossOf (Vx m c (Proc.devRef .tc main_v7_0)) (Vx m c (Proc.devRef .tc main_v7_1)) := by
  show StableHlo.after hostOps1 (Vx m c) (Proc.devRef .tc main_v16) = _
  after_results
  try rfl

/-- The first result column, flattened, is the reference's row maxima. -/
theorem gpos_vec : shapeCast S8192 (Gpos m c) shapeCasts_S8192x1_S8192
    = Cert.ReferenceIdeal.Read.val_main_v36 (F := Ideal) (emb m c) (lab m c) := by
  funext j
  obtain ⟨R, rfl⟩ : ∃ R : Fin 8192, j = ix1 R := ⟨j 0, eq_ix1 j⟩
  rw [vec_of_col]
  exact (Cert.ReferenceIdeal.TriRef.hpos_eq (emb m c) (lab m c) R).symm

/-- The second result column, flattened, is the reference's row minima. -/
theorem gneg_vec : shapeCast S8192 (Gneg m c) shapeCasts_S8192x1_S8192
    = Cert.ReferenceIdeal.Read.val_main_v37 (F := Ideal) (emb m c) (lab m c) := by
  funext j
  obtain ⟨R, rfl⟩ : ∃ R : Fin 8192, j = ix1 R := ⟨j 0, eq_ix1 j⟩
  rw [vec_of_col]
  exact (Cert.ReferenceIdeal.TriRef.hneg_eq (emb m c) (lab m c) R).symm

/-- So the program's result is the reference's. -/
theorem loss_eq : Vt m c (Proc.devRef .tc main_v16)
    = Cert.ReferenceIdeal.Read.val_main_v44 (F := Ideal) (emb m c) (lab m c) := by
  have e6 : Vx m c (Proc.devRef .tc main_v7_0) = Gpos m c := (Vx_arr m c 6).trans (final6 m c)
  have e7 : Vx m c (Proc.devRef .tc main_v7_1) = Gneg m c := (Vx_arr m c 7).trans (final7 m c)
  rw [Vt_v16, e6, e7]
  unfold lossOf
  rw [gpos_vec, gneg_vec]
  rfl

/-- The run of the program on the extended reals, read: its result at the loss, its arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v16) = Vt m c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v16 (by decide),
     ((h c).2 main_arg0 (by decide)).trans (Vt_keeps m c main_arg0 (by decide) (by decide) (by decide) (by decide)),
     ((h c).2 main_arg1 (by decide)).trans (Vt_keeps m c main_arg1 (by decide) (by decide) (by decide) (by decide))⟩)
    (run_main m ρ)

end Cert.KernelIdeal.Tri

end
-- ==== Proof.lean ====
/-
  The triplet-mining loss: the tiled kernel against the whole-matrix reference, on the extended reals.

  Both programs compute, from 8192 embeddings of 128 numbers and their labels, the pairwise distances
  sqrt(max(|x_R|^2 + |x_C|^2 - 2 <x_R, x_C>, 0)), mask them by label equality with the diagonal forced to -inf, take per
  row the largest masked positive distance and the smallest masked negative one, and average
  max(hardest positive - hardest negative + 1, 0) over the rows. The kernel visits the 8192 x 8192 matrix in an
  8 x 8 grid of 1024 x 1024 tiles, keeping a running row maximum and a running row minimum across the column tiles of a
  row of tiles; a supremum over a row is the supremum over the column tiles of the tiles' row suprema, and likewise for
  infima, so the two programs agree whatever the inputs: no finiteness is used. The cast of the embeddings to a
  narrower format changes nothing on the extended reals; the reference's guarded square root is the square root
  because its argument is a maximum with zero; equality of labels is symmetric.

  The frames: each program terminates on every weakly fair execution and leaves its two arguments as they were. The
  kernel hands the same array (the cast embeddings) to two input windows; its buffer is shared between them half and
  half for the duration of the region and rejoined afterwards.
-/
import proofs.«180511_j70368744178174_1_alg».proof.Defs
import proofs.«180511_j70368744178174_1_alg».proof.Proof.Kernel.FrameClaim
import proofs.«180511_j70368744178174_1_alg».proof.Proof.KernelIdeal.FrameClaim
import proofs.«180511_j70368744178174_1_alg».proof.Proof.KernelIdeal.Loss
import proofs.«180511_j70368744178174_1_alg».proof.Proof.RefRead
import proofs.«180511_j70368744178174_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Tri.frame m ρ

theorem frame_ki : Cert.frame_KernelIdeal := fun m ρ _ => Cert.KernelIdeal.Tri.frame m ρ

theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, the two programs end with the same loss. -/
theorem algebraic : Cert.algebraic_KernelIdeal_ReferenceIdeal := by
  intro m ρ m' ρ' _ hagree
  refine ⟨fun c => Cert.KernelIdeal.Tri.Vt m c (Proc.devRef .tc Cert.KernelIdeal.main_v16),
    Cert.KernelIdeal.Tri.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2]
  exact (Cert.KernelIdeal.Tri.loss_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
